-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x64x64 : Shape := ⟨4, ![16, 256, 64, 64]⟩
abbrev S512x256 : Shape := ⟨2, ![512, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S_ : Shape := ⟨0, ![]⟩

class Facts : Prop where
  bcast_S_S16x256x64x64 : S_.BroadcastsInDim S16x256x64x64 (![] : Fin 0 → Fin S16x256x64x64.rank)
  reducesTo_S16x256x64x64_S_d0_1_2_3 : S16x256x64x64.ReducesTo [0, 1, 2, 3] S_
  h_S_ : 0 < S_.numel
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S128x256 .f32) (main_arg5 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S16x256x64x64 .f32) (main_arg1 : FVec F S512x256 .f32) (main_arg2 : FVec F S256x128 .f32) (main_arg3 : FVec F S128 .f32) (main_arg4 : FVec F S128x256 .f32) (main_arg5 : FVec F S256 .f32) : IVec S_ 1 :=
  let main_v0 : FVec F S16x256x64x64 .f32 := Host.absf main_arg0
  let main_cst : FVec F S_ .f32 := constant S_ .f32 0x7F800000#32
  let main_v1 : FVec F S16x256x64x64 .f32 := broadcastInDim S16x256x64x64 ![] bcast_S_S16x256x64x64 main_cst
  let main_v2 : IVec S16x256x64x64 1 := cmpf .olt main_v0 main_v1
  let main_c : IVec S_ 1 := constantI S_ 1 1#1
  let main_v3 : IVec S_ 1 := (fun x v => Host.reduce IntOp.andi x v reducesTo_S16x256x64x64_S_d0_1_2_3 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S16x256x64x64 : Shape := ⟨4, ![16, 256, 64, 64]⟩
abbrev S512x256 : Shape := ⟨2, ![512, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S512x128 : Shape := ⟨2, ![512, 128]⟩
abbrev S1x128 : Shape := ⟨2, ![1, 128]⟩
abbrev S1x256 : Shape := ⟨2, ![1, 256]⟩
abbrev S512 : Shape := ⟨1, ![512]⟩
abbrev S512x1 : Shape := ⟨2, ![512, 1]⟩
abbrev S16x512x64x64 : Shape := ⟨4, ![16, 512, 64, 64]⟩
abbrev S1x256x16x64 : Shape := ⟨4, ![1, 256, 16, 64]⟩
abbrev S1x512x16x64 : Shape := ⟨4, ![1, 512, 16, 64]⟩
abbrev S256x16x64 : Shape := ⟨3, ![256, 16, 64]⟩
abbrev S256x1024 : Shape := ⟨2, ![256, 1024]⟩
abbrev S1024 : Shape := ⟨1, ![1024]⟩
abbrev S1x1024 : Shape := ⟨2, ![1, 1024]⟩
abbrev S512x1024 : Shape := ⟨2, ![512, 1024]⟩
abbrev S512x16x64 : Shape := ⟨3, ![512, 16, 64]⟩

abbrev nBuf : Space → Nat
  | .hbm => 9
  | .vmem => 13
  | .smem => 0
  | _ => 0

abbrev bufTy : (tb : Table) → Fin (tcTables nBuf tb) → BufTy
  | .hbm, ⟨0, _⟩ => ⟨S16x256x64x64, .f32⟩
  | .hbm, ⟨1, _⟩ => ⟨S512x256, .f32⟩
  | .hbm, ⟨2, _⟩ => ⟨S256x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S512x256, .f32⟩
  | .hbm, ⟨7, _⟩ => ⟨S16x256x64x64, .f32⟩
  | .hbm, ⟨8, _⟩ => ⟨S16x512x64x64, .f32⟩
  | .local _ .vmem, ⟨0, _⟩ => ⟨S512x256, .f32⟩
  | .local _ .vmem, ⟨1, _⟩ => ⟨S256x128, .f32⟩
  | .local _ .vmem, ⟨2, _⟩ => ⟨S128, .f32⟩
  | .local _ .vmem, ⟨3, _⟩ => ⟨S128x256, .f32⟩
  | .local _ .vmem, ⟨4, _⟩ => ⟨S256, .f32⟩
  | .local _ .vmem, ⟨5, _⟩ => ⟨S512x256, .f32⟩
  | .local _ .vmem, ⟨6, _⟩ => ⟨S1x256x16x64, .f32⟩
  | .local _ .vmem, ⟨7, _⟩ => ⟨S1x256x16x64, .f32⟩
  | .local _ .vmem, ⟨8, _⟩ => ⟨S512x256, .f32⟩
  | .local _ .vmem, ⟨9, _⟩ => ⟨S1x256x16x64, .f32⟩
  | .local _ .vmem, ⟨10, _⟩ => ⟨S1x256x16x64, .f32⟩
  | .local _ .vmem, ⟨11, _⟩ => ⟨S1x512x16x64, .f32⟩
  | .local _ .vmem, ⟨12, _⟩ => ⟨S1x512x16x64, .f32⟩
  | _, _ => ⟨S16x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![16, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x256x16x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x256x16x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x16x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  reduces_S512x256_S512 : S512x256.Reduces [1] S512
  shapeCasts_S512_S512x1 : S512.ShapeCasts S512x1
  broadcasts_S512x1_S512x256 : S512x1.Broadcasts S512x256
  inb_S1x256x16x64_S1x256x16x64_0_0_0_0 : ∀ a, (![0, 0, 0, 0] : Fin 4 → Nat) a + S1x256x16x64.size a ≤ S1x256x16x64.size a
  h_S1x256x16x64 : 0 < S1x256x16x64.numel
  shapeCasts_S1x256x16x64_S256x16x64 : S1x256x16x64.ShapeCasts S256x16x64
  shapeCasts_S256x16x64_S256x1024 : S256x16x64.ShapeCasts S256x1024
  reduces_S256x1024_S1024 : S256x1024.Reduces [0] S1024
  shapeCasts_S1024_S1x1024 : S1024.ShapeCasts S1x1024
  broadcasts_S1x1024_S256x1024 : S1x1024.Broadcasts S256x1024
  shapeCasts_S512x256_S512x256 : S512x256.ShapeCasts S512x256
  reduces_S512x1024_S1024 : S512x1024.Reduces [0] S1024
  broadcasts_S1x1024_S512x1024 : S1x1024.Broadcasts S512x1024
  shapeCasts_S512x1024_S512x16x64 : S512x1024.ShapeCasts S512x16x64
  inb_S1x512x16x64_S1x512x16x64_0_0_0_0 : ∀ a, (![0, 0, 0, 0] : Fin 4 → Nat) a + S1x512x16x64.size a ≤ S1x512x16x64.size a
  h_S1x512x16x64 : 0 < S1x512x16x64.numel
  shapeCasts_S1x512x16x64_S512x16x64 : S1x512x16x64.ShapeCasts S512x16x64
  shapeCasts_S512x16x64_S1x512x16x64 : S512x16x64.ShapeCasts S1x512x16x64
  shapeCasts_S256x1024_S256x16x64 : S256x1024.ShapeCasts S256x16x64
  shapeCasts_S256x16x64_S1x256x16x64 : S256x16x64.ShapeCasts S1x256x16x64
  dot_S512x256_S256x128_S512x128_1_0_0_1_n_n_wf : DotDims.WF S512x256 S256x128 S512x128 [1] [0] [0] [1] [] []
  dot_S512x128_S128x256_S512x256_1_0_0_1_n_n_wf : DotDims.WF S512x128 S128x256 S512x256 [1] [0] [0] [1] [] []
  dot_S512x256_S256x1024_S512x1024_1_0_0_1_n_n_wf : DotDims.WF S512x256 S256x1024 S512x1024 [1] [0] [0] [1] [] []
  dot_S512x256_S512x1024_S256x1024_0_0_1_1_n_n_wf : DotDims.WF S512x256 S512x1024 S256x1024 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S512x256.size a
  hwx0_0 : ∀ i : grid0.Coords, EltTy.bits .f32 = 32 ∨ (Rect.block (s := S512x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x16x64.size a ≤ S16x256x64x64.size a
  hwx1_0 : ∀ i : grid1.Coords, EltTy.bits .f32 = 32 ∨ (Rect.block (s := S16x256x64x64) S1x256x16x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x16x64.size a ≤ S16x256x64x64.size a
  hwx1_2 : ∀ i : grid1.Coords, EltTy.bits .f32 = 32 ∨ (Rect.block (s := S16x256x64x64) S1x256x16x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x16x64.size a ≤ S16x512x64x64.size a
  hwx1_3 : ∀ i : grid1.Coords, EltTy.bits .f32 = 32 ∨ (Rect.block (s := S16x512x64x64) S1x512x16x64.size (cc1_transform_3 i) (hinb1_3 i)).WholeWords (EltTy.packing .f32)

variable [Facts₀]

def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x256_S512x1024_S256x1024_0_0_1_1_n_n : DotDims S512x256 S512x1024 S256x1024 where
  lhsContracting := [0]
  rhsContracting := [0]
  lhsNonContracting := [1]
  rhsNonContracting := [1]
  lhsBatch := []
  rhsBatch := []
  wf := dot_S512x256_S512x1024_S256x1024_0_0_1_1_n_n_wf

abbrev win0_0 : Pipeline.Window sig grid0 :=
  Pipeline.Window.ofSpec (Memref.whole main_arg1) S512x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1x256x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S1x256x16x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S1x512x16x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x256x64x64 : Shape := ⟨4, ![16, 256, 64, 64]⟩
abbrev S512x256 : Shape := ⟨2, ![512, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S16x64x64x256 : Shape := ⟨4, ![16, 64, 64, 256]⟩
abbrev S65536x256 : Shape := ⟨2, ![65536, 256]⟩
abbrev S_ : Shape := ⟨0, ![]⟩
abbrev S65536 : Shape := ⟨1, ![65536]⟩
abbrev S65536x1 : Shape := ⟨2, ![65536, 1]⟩
abbrev S512x128 : Shape := ⟨2, ![512, 128]⟩
abbrev S1x128 : Shape := ⟨2, ![1, 128]⟩
abbrev S1x256 : Shape := ⟨2, ![1, 256]⟩
abbrev S512 : Shape := ⟨1, ![512]⟩
abbrev S512x1 : Shape := ⟨2, ![512, 1]⟩
abbrev S256x512 : Shape := ⟨2, ![256, 512]⟩
abbrev S65536x512 : Shape := ⟨2, ![65536, 512]⟩
abbrev S16x64x64x512 : Shape := ⟨4, ![16, 64, 64, 512]⟩
abbrev S16x512x64x64 : Shape := ⟨4, ![16, 512, 64, 64]⟩

abbrev nBuf : Space → Nat
  | .hbm => 77
  | .vmem => 0
  | .smem => 0
  | _ => 0

abbrev bufTy : (tb : Table) → Fin (tcTables nBuf tb) → BufTy
  | .hbm, ⟨0, _⟩ => ⟨S16x256x64x64, .f32⟩
  | .hbm, ⟨1, _⟩ => ⟨S512x256, .f32⟩
  | .hbm, ⟨2, _⟩ => ⟨S256x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S16x64x64x256, .f32⟩
  | .hbm, ⟨7, _⟩ => ⟨S65536x256, .f32⟩
  | .hbm, ⟨8, _⟩ => ⟨S65536x256, .f32⟩
  | .hbm, ⟨9, _⟩ => ⟨S_, .f32⟩
  | .hbm, ⟨10, _⟩ => ⟨S65536, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x256, .f32⟩
  | .hbm, ⟨17, _⟩ => ⟨S65536x256, .f32⟩
  | .hbm, ⟨18, _⟩ => ⟨S512x128, .f32⟩
  | .hbm, ⟨19, _⟩ => ⟨S1x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x256, .f32⟩
  | .hbm, ⟨26, _⟩ => ⟨S1x256, .f32⟩
  | .hbm, ⟨27, _⟩ => ⟨S512x256, .f32⟩
  | .hbm, ⟨28, _⟩ => ⟨S512x256, .f32⟩
  | .hbm, ⟨29, _⟩ => ⟨S_, .f32⟩
  | .hbm, ⟨30, _⟩ => ⟨S512x256, .f32⟩
  | .hbm, ⟨31, _⟩ => ⟨S512x256, .f32⟩
  | .hbm, ⟨32, _⟩ => ⟨S512x256, .f32⟩
  | .hbm, ⟨33, _⟩ => ⟨S_, .f32⟩
  | .hbm, ⟨34, _⟩ => ⟨S512, .f32⟩
  | .hbm, ⟨35, _⟩ => ⟨S512x1, .f32⟩
  | .hbm, ⟨36, _⟩ => ⟨S512x1, .f32⟩
  | .hbm, ⟨37, _⟩ => ⟨S_, .f32⟩
  | .hbm, ⟨38, _⟩ => ⟨S512x1, .f32⟩
  | .hbm, ⟨39, _⟩ => ⟨S512x1, .f32⟩
  | .hbm, ⟨40, _⟩ => ⟨S512x256, .f32⟩
  | .hbm, ⟨41, _⟩ => ⟨S512x256, .f32⟩
  | .hbm, ⟨42, _⟩ => ⟨S256x512, .f32⟩
  | .hbm, ⟨43, _⟩ => ⟨S65536x512, .f32⟩
  | .hbm, ⟨44, _⟩ => ⟨S_, .f32⟩
  | .hbm, ⟨45, _⟩ => ⟨S65536, .f32⟩
  | .hbm, ⟨46, _⟩ => ⟨S_, .f32⟩
  | .hbm, ⟨47, _⟩ => ⟨S65536, .f32⟩
  | .hbm, ⟨48, _⟩ => ⟨S65536, .f32⟩
  | .hbm, ⟨49, _⟩ => ⟨S65536x1, .f32⟩
  | .hbm, ⟨50, _⟩ => ⟨S65536x512, .f32⟩
  | .hbm, ⟨51, _⟩ => ⟨S65536x512, .f32⟩
  | .hbm, ⟨52, _⟩ => ⟨S65536x512, .f32⟩
  | .hbm, ⟨53, _⟩ => ⟨S_, .f32⟩
  | .hbm, ⟨54, _⟩ => ⟨S65536, .f32⟩
  | .hbm, ⟨55, _⟩ => ⟨S65536x1, .f32⟩
  | .hbm, ⟨56, _⟩ => ⟨S65536x512, .f32⟩
  | .hbm, ⟨57, _⟩ => ⟨S65536x512, .f32⟩
  | .hbm, ⟨58, _⟩ => ⟨S_, .f32⟩
  | .hbm, ⟨59, _⟩ => ⟨S65536x512, .f32⟩
  | .hbm, ⟨60, _⟩ => ⟨S65536x512, .f32⟩
  | .hbm, ⟨61, _⟩ => ⟨S_, .f32⟩
  | .hbm, ⟨62, _⟩ => ⟨S65536x512, .f32⟩
  | .hbm, ⟨63, _⟩ => ⟨S65536x512, .f32⟩
  | .hbm, ⟨64, _⟩ => ⟨S_, .f32⟩
  | .hbm, ⟨65, _⟩ => ⟨S65536, .f32⟩
  | .hbm, ⟨66, _⟩ => ⟨S65536x1, .f32⟩
  | .hbm, ⟨67, _⟩ => ⟨S_, .f32⟩
  | .hbm, ⟨68, _⟩ => ⟨S65536x1, .f32⟩
  | .hbm, ⟨69, _⟩ => ⟨S65536x1, .f32⟩
  | .hbm, ⟨70, _⟩ => ⟨S65536x512, .f32⟩
  | .hbm, ⟨71, _⟩ => ⟨S65536x512, .f32⟩
  | .hbm, ⟨72, _⟩ => ⟨S65536x256, .f32⟩
  | .hbm, ⟨73, _⟩ => ⟨S16x64x64x256, .f32⟩
  | .hbm, ⟨74, _⟩ => ⟨S16x256x64x64, .f32⟩
  | .hbm, ⟨75, _⟩ => ⟨S16x64x64x512, .f32⟩
  | .hbm, ⟨76, _⟩ => ⟨S16x512x64x64, .f32⟩
  | _, _ => ⟨S16x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call2_cst : Ref sig .tc := ⟨.hbm, 29, rfl⟩
abbrev main_call2_v0 : Ref sig .tc := ⟨.hbm, 30, rfl⟩
abbrev main_v16 : Ref sig .tc := ⟨.hbm, 31, rfl⟩
abbrev main_call3_v0 : Ref sig .tc := ⟨.hbm, 32, rfl⟩
abbrev main_call3_cst : Ref sig .tc := ⟨.hbm, 33, rfl⟩
abbrev main_call3_v1 : Ref sig .tc := ⟨.hbm, 34, rfl⟩
abbrev main_call3_v2 : Ref sig .tc := ⟨.hbm, 35, rfl⟩
abbrev main_v17 : Ref sig .tc := ⟨.hbm, 36, rfl⟩
abbrev main_cst_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_1 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_4 : Ref sig .tc := ⟨.hbm, 58, rfl⟩
abbrev main_v35 : Ref sig .tc := ⟨.hbm, 59, rfl⟩
abbrev main_v36 : Ref sig .tc := ⟨.hbm, 60, rfl⟩
abbrev main_call4_cst : Ref sig .tc := ⟨.hbm, 61, rfl⟩
abbrev main_call4_v0 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩

abbrev nD : Nat := 1
abbrev τ : Topo := Topo.v7x

variable {F : FTy → Type} [FloatOps F]

class Facts₀ : Prop where
  transposes_S16x256x64x64_S16x64x64x256_0_2_3_1 : S16x256x64x64.Transposes [0, 2, 3, 1] S16x64x64x256
  shapeCasts_S16x64x64x256_S65536x256 : S16x64x64x256.ShapeCasts S65536x256
  reducesTo_S65536x256_S65536_d1 : S65536x256.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x256_0_1 : S65536x1.BroadcastsInDim S65536x256 (![0, 1] : Fin 2 → Fin S65536x256.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  reducesTo_S512x256_S512_d1 : S512x256.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x256_0_1 : S512x1.BroadcastsInDim S512x256 (![0, 1] : Fin 2 → Fin S512x256.rank)
  transposes_S512x256_S256x512_1_0 : S512x256.Transposes [1, 0] S256x512
  reducesTo_S65536x512_S65536_d1 : S65536x512.ReducesTo [1] S65536
  bcast_S_S65536 : S_.BroadcastsInDim S65536 (![] : Fin 0 → Fin S65536.rank)
  bcast_S65536x1_S65536x512_0_1 : S65536x1.BroadcastsInDim S65536x512 (![0, 1] : Fin 2 → Fin S65536x512.rank)
  bcast_S_S65536x512 : S_.BroadcastsInDim S65536x512 (![] : Fin 0 → Fin S65536x512.rank)
  shapeCasts_S65536x256_S16x64x64x256 : S65536x256.ShapeCasts S16x64x64x256
  transposes_S16x64x64x256_S16x256x64x64_0_3_1_2 : S16x64x64x256.Transposes [0, 3, 1, 2] S16x256x64x64
  shapeCasts_S65536x512_S16x64x64x512 : S65536x512.ShapeCasts S16x64x64x512
  transposes_S16x64x64x512_S16x512x64x64_0_3_1_2 : S16x64x64x512.Transposes [0, 3, 1, 2] S16x512x64x64
  dot_S512x256_S256x128_S512x128_1_0_0_1_n_n_wf : DotDims.WF S512x256 S256x128 S512x128 [1] [0] [0] [1] [] []
  dot_S512x128_S128x256_S512x256_1_0_0_1_n_n_wf : DotDims.WF S512x128 S128x256 S512x256 [1] [0] [0] [1] [] []
  dot_S65536x256_S256x512_S65536x512_1_0_0_1_n_n_wf : DotDims.WF S65536x256 S256x512 S65536x512 [1] [0] [0] [1] [] []
  dot_S65536x512_S512x256_S65536x256_1_0_0_1_n_n_wf : DotDims.WF S65536x512 S512x256 S65536x256 [1] [0] [0] [1] [] []

variable [Facts₀]

def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf

class Facts : Prop extends Facts₀ where

variable [Facts]
-- ==== Proof.KernelRun.lean ====
/-
  The idealized kernel's run with its two result arrays named.

  The program is two kernel regions one after the other.  Every weakly fair execution terminates, and at the end each
  unscoped buffer holds what the fold through the two regions leaves in it: the second region's two output arrays at
  the write-backs of its grid points folded over the contents the region found, the arguments as launched.
-/
import proofs.«177485_j10599979286560_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the two result arrays end at the second region's folded write-backs and
    the six arguments end as launched. -/
theorem run_values : θ_run defs (onTc (τ := τ) (main (F := F))) ⟨m, fun _ => 0, ρ⟩ (fun r => ∀ c : Dev nD,
      r.2.mem ((c.tc : Thread nD τ).loc main_v1_0) = (dat1 (V1 m ρ) c).arrAt 2 cfg1.N
      ∧ r.2.mem ((c.tc : Thread nD τ).loc main_v1_1) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1_0 (by decide))).trans (W2_arr m ρ c 2),
       (h c _ (mem_uc main_v1_1 (by decide))).trans (W2_arr m ρ c 3),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c)⟩)

end Cert.KernelIdeal.RunValue

end
-- ==== Proof.Spec.lean ====
/-
  The function both programs compute, written once over the extended reals.

  A memory table `mem : 512 × 256` goes through a two-layer perceptron with rectifiers,
  `hid = max (mem · w1 + b1) 0`, `feat = max (hid · w2 + b2) 0`, and each of its rows is divided by the
  larger of its Euclidean norm and a small constant: `memn`.
  A pixel is a column `x : 256` of channel values.  It is divided by the larger of its Euclidean norm and the
  same constant (`xn`); its scores against the 512 normalised memory rows (`score`) go through a softmax
  shifted by their maximum (`soft`), a hard shrink by a threshold followed by a rectifier (`shr`) and a
  division by the larger of the sum and the small constant (`att`); the pixel's output is the combination of the
  memory rows weighted by these (`outp`).
  The float literals stay the binary words the programs print: both programs carry the same words.
-/
import Idealize.ShloMosaic.PureOps.Ideal
import Idealize.ShloMosaic.Lib.ValueIdx

noncomputable section

open scoped BigOperators

namespace Cert.Spec

open Idealize.ShloMosaic Idealize.ShloMosaic.ValueIdx

/-- The rectifier's zero, the normalisations' small constant, the shrink threshold and the maximum's starting value. -/
abbrev zeroL : EReal := Ideal.ofBits .f32 0x00000000#32
abbrev epsL : EReal := Ideal.ofBits .f32 0x2B8CBCCC#32
abbrev thrL : EReal := Ideal.ofBits .f32 0x3B23D70A#32
abbrev ninfL : EReal := Ideal.ofBits .f32 0xFF800000#32

/-! ## The memory perceptron -/

/-- The hidden layer: `max (∑ j, mem m j · w1 j k + b1 k) 0`. -/
def hid (mem : Fin 512 → Fin 256 → EReal) (w1 : Fin 256 → Fin 128 → EReal) (b1 : Fin 128 → EReal)
    (m : Fin 512) (k : Fin 128) : EReal :=
  max ((∑ j : Fin 256, mem m j * w1 j k) + b1 k) zeroL

/-- The second layer: `max (∑ k, hid m k · w2 k c + b2 c) 0`. -/
def feat (h : Fin 512 → Fin 128 → EReal) (w2 : Fin 128 → Fin 256 → EReal) (b2 : Fin 256 → EReal)
    (m : Fin 512) (c : Fin 256) : EReal :=
  max ((∑ k : Fin 128, h m k * w2 k c) + b2 c) zeroL

/-- A row divided by the larger of its Euclidean norm and the small constant. -/
def rowNormed (f : Fin 512 → Fin 256 → EReal) (m : Fin 512) (c : Fin 256) : EReal :=
  Ideal.div (f m c) (max (Ideal.sqrt (∑ c' : Fin 256, f m c' * f m c')) epsL)

/-- The normalised memory as a function of the five parameter tables. -/
def memn (mem : Fin 512 → Fin 256 → EReal) (w1 : Fin 256 → Fin 128 → EReal) (b1 : Fin 128 → EReal)
    (w2 : Fin 128 → Fin 256 → EReal) (b2 : Fin 256 → EReal) : Fin 512 → Fin 256 → EReal :=
  rowNormed (feat (hid mem w1 b1) w2 b2)

/-! ## One pixel -/

/-- The pixel's channel column divided by the larger of its Euclidean norm and the small constant. -/
def xn (x : Fin 256 → EReal) (c : Fin 256) : EReal :=
  Ideal.div (x c) (max (Ideal.sqrt (∑ c' : Fin 256, x c' * x c')) epsL)

/-- The score of memory row `m`: its inner product with the normalised pixel. -/
def score (M : Fin 512 → Fin 256 → EReal) (x : Fin 256 → EReal) (m : Fin 512) : EReal :=
  ∑ c : Fin 256, M m c * xn x c

/-- The largest score, folded from the starting value. -/
def smax (M : Fin 512 → Fin 256 → EReal) (x : Fin 256 → EReal) : EReal :=
  (Finset.univ : Finset (Fin 512)).fold max ninfL (score M x)

/-- The exponential of a score shifted by the largest. -/
def ex (M : Fin 512 → Fin 256 → EReal) (x : Fin 256 → EReal) (m : Fin 512) : EReal :=
  Ideal.exp (score M x m - smax M x)

/-- The softmax over the memory rows. -/
def soft (M : Fin 512 → Fin 256 → EReal) (x : Fin 256 → EReal) (m : Fin 512) : EReal :=
  Ideal.div (ex M x m) (∑ m' : Fin 512, ex M x m')

/-- The hard shrink: subtract the threshold and rectify. -/
def shr (M : Fin 512 → Fin 256 → EReal) (x : Fin 256 → EReal) (m : Fin 512) : EReal :=
  max (soft M x m - thrL) zeroL

/-- The attention weights: the shrunk softmax divided by the larger of its sum and the small constant. -/
def att (M : Fin 512 → Fin 256 → EReal) (x : Fin 256 → EReal) (m : Fin 512) : EReal :=
  Ideal.div (shr M x m) (max (∑ m' : Fin 512, shr M x m') epsL)

/-- The pixel's output channel `c`: the memory rows' entries at `c` weighted by the attention. -/
def outp (M : Fin 512 → Fin 256 → EReal) (x : Fin 256 → EReal) (c : Fin 256) : EReal :=
  ∑ m : Fin 512, M m c * att M x m

/-! ## Over the arrays -/

/-- The normalised memory of the five parameter arrays. -/
def memnA (a1 : (⟨2, ![512, 256]⟩ : Shape).Idx → EReal) (a2 : (⟨2, ![256, 128]⟩ : Shape).Idx → EReal)
    (a3 : (⟨1, ![128]⟩ : Shape).Idx → EReal) (a4 : (⟨2, ![128, 256]⟩ : Shape).Idx → EReal)
    (a5 : (⟨1, ![256]⟩ : Shape).Idx → EReal) : Fin 512 → Fin 256 → EReal :=
  memn (fun m j => a1 (ix2 m j)) (fun j k => a2 (ix2 j k)) (fun k => a3 (ix1 k)) (fun k c => a4 (ix2 k c))
    (fun c => a5 (ix1 c))

/-- The channel column of the image array at batch `n`, row `h`, column `w`. -/
def pixel (X : (⟨4, ![16, 256, 64, 64]⟩ : Shape).Idx → EReal) (n : Fin 16) (h w : Fin 64) (c : Fin 256) : EReal :=
  X (ix4 n c h w)

/-- The output image: at (n, c, h, w) the pixel (n, h, w)'s output channel `c`. -/
def outArr (M : Fin 512 → Fin 256 → EReal) (X : (⟨4, ![16, 256, 64, 64]⟩ : Shape).Idx → EReal) :
    (⟨4, ![16, 256, 64, 64]⟩ : Shape).Idx → EReal :=
  fun i => outp M (pixel X (i 0) (i 2) (i 3)) (i 1)

/-- The attention map: at (n, m, h, w) the pixel (n, h, w)'s weight of memory row `m`. -/
def attArr (M : Fin 512 → Fin 256 → EReal) (X : (⟨4, ![16, 256, 64, 64]⟩ : Shape).Idx → EReal) :
    (⟨4, ![16, 512, 64, 64]⟩ : Shape).Idx → EReal :=
  fun i => att M (pixel X (i 0) (i 2) (i 3)) (i 1)

end Cert.Spec

end
-- ==== Proof.LibPlainDot.lean ====
/-
  A matrix product into a zero accumulator, read at coordinates.

  For a dot of a `[M, K]` matrix with a `[K, N]` matrix whose dimension numbers contract the left operand's second axis with
  the right operand's first and keep the other two in order, the product accumulated into the zero splat is, at `(p, c)`,

      ∑ k : Fin K, l (p, k) · r (k, c)

  on the extended reals. The dimension record enters only through four facts about its operand indices — the left index at
  output index `i` and contraction position `q` is `(i 0, q)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.PlainDot

open Idealize.ShloMosaic Idealize.ShloMosaic.ValueIdx

/-- The product of an `[M, K]` and a `[K, N]` matrix into the zero splat at `(p, c)`: the sum over `k` of `l (p, k) · r (k, c)`. -/
theorem matmul_zero_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.PlainDot
-- ==== Proof.LibColumns.lean ====
/-
  Column vectors read at coordinates: the three layout steps of a "keepdims" row reduction.

  A reduction over the last axis of an `[a, n]` array gives a vector `[a]`; kept as a COLUMN it is cast to `[a, 1]`,
  and a column is then either broadcast along a new second axis to `[a, b]` (every entry of row `p` is the column's
  entry `p`) or transposed to the row `[1, a]`. Each lemma reads one of these at an index written with coordinates.
-/
import Idealize.ShloMosaic.Lib.Pipeline.Value
import Idealize.ShloMosaic.Lib.ValueIdx
import Idealize.ShloMosaic.Lib.ValueLayout

namespace Cert.Lib.Columns

open Idealize.ShloMosaic Idealize.ShloMosaic.ValueIdx

variable {α : Type}

/-- A vector `[a]` cast to the column `[a, 1]` reads, at `(p, z)`, the vector at `p`, whatever the unit coordinate `z`:
    both indices have row-major position `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(z, p)`, the column's entry `p`. -/
theorem transpose_a1_1a_apply {a : ℕ} (x : (⟨2, ![a, 1]⟩ : Shape).Idx → α)
    (h : (⟨2, ![a, 1]⟩ : Shape).Transposes [1, 0] ⟨2, ![1, a]⟩) (z : Fin 1) (p : Fin a) :
    transpose ⟨2, ![1, a]⟩ [1, 0] x h (ix2 z p) = x (ix2 p z) :=
  transpose_ix2_apply x h z p

end Cert.Lib.Columns
-- ==== Proof.LibLift2.lean ====
/-
  The index a one-axis reduction of a matrix puts back: reducing an m × n matrix over its columns (axis 1) leaves a
  vector over the rows, and entry p of the result gathers the matrix entries (p, k); reducing over its rows (axis 0)
  leaves a vector over the columns, and entry t gathers the entries (k, t).
-/
import Idealize.ShloMosaic.PureOps.Reduce
import Idealize.ShloMosaic.Lib.ValueIdx

namespace Cert.Lift2

open Idealize.ShloMosaic Idealize.ShloMosaic.ValueIdx

/-- Row `p` of the reduced vector with column `k` put back is the matrix index (p, k). -/
theorem lift_axis1 {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- Column `t` of the reduced vector with row `k` put back is the matrix index (k, t). -/
theorem lift_axis0 {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

end Cert.Lift2
-- ==== Proof.LibAxisFold.lean ====
/-
  One-axis reductions of a matrix of extended reals read at coordinates, with the accumulator word a VARIABLE.

  Over the columns (axis 1) of an m × n matrix, entry p of the sum is the sum over c of the entries (p, c); over the
  rows (axis 0), entry t is the sum over r of the entries (r, t).  A maximum taken from the accumulator's value is the
  fold of `max` from that value over the same entries.  The accumulator is any word that is the kind's neutral one, so
  the statements meet a printed reduction whatever proof terms it carries for that fact.
-/
import Idealize.ShloMosaic.PureOps.Ideal.Laws
import Idealize.ShloMosaic.Lib.ValueIdx
import proofs.«177485_j10599979286560_1_alg».proof.Proof.LibLift2

noncomputable section

open scoped BigOperators

namespace Cert.AxisFold

open Idealize.ShloMosaic Idealize.ShloMosaic.ValueIdx Cert.Lift2

/-- Entry `p` of the sum over the columns is the sum of row `p`. -/
theorem rowSum_acc {m n : Nat} (v : FVec Ideal ⟨2, ![m, n]⟩ .f32) (acc : BitVec FTy.f32.bits)
    (h : (⟨2, ![m, n]⟩ : Shape).Reduces [1] (⟨1, ![m]⟩ : Shape)) (hφ : FKind.Formats .f32)
    (hacc : acc = FKind.add.neutral .f32 hφ) (p : Fin m) :
    multiReduction .add [1] (⟨1, ![m]⟩ : Shape) v acc h hφ hacc (ix1 p) = ∑ c : Fin n, v (ix2 p c) := by
  refine (Ideal.multiReduction_add_single v acc h hφ hacc (ix1 p)).trans ?_
  show ∑ k : Fin n, v (h.lift (ix1 p) k) = _
  exact Finset.sum_congr rfl fun k _ => congrArg v (lift_axis1 h p k)

/-- Entry `t` of the sum over the rows is the sum of column `t`. -/
theorem colSum_acc {m n : Nat} (v : FVec Ideal ⟨2, ![m, n]⟩ .f32) (acc : BitVec FTy.f32.bits)
    (h : (⟨2, ![m, n]⟩ : Shape).Reduces [0] (⟨1, ![n]⟩ : Shape)) (hφ : FKind.Formats .f32)
    (hacc : acc = FKind.add.neutral .f32 hφ) (t : Fin n) :
    multiReduction .add [0] (⟨1, ![n]⟩ : Shape) v acc h hφ hacc (ix1 t) = ∑ r : Fin m, v (ix2 r t) := by
  refine (Ideal.multiReduction_add_single v acc h hφ hacc (ix1 t)).trans ?_
  show ∑ k : Fin m, v (h.lift (ix1 t) k) = _
  exact Finset.sum_congr rfl fun k _ => congrArg v (lift_axis0 h t k)

/-- Entry `p` of the maximum over the columns is the fold of `max` from the accumulator's value over row `p`. -/
theorem rowMax_fold {m n : Nat} (v : FVec Ideal ⟨2, ![m, n]⟩ .f32) (acc : BitVec FTy.f32.bits)
    (h : (⟨2, ![m, n]⟩ : Shape).Reduces [1] (⟨1, ![m]⟩ : Shape)) (hφ : FKind.Formats .f32)
    (hacc : acc = FKind.maximumf.neutral .f32 hφ) (p : Fin m) :
    multiReduction .maximumf [1] (⟨1, ![m]⟩ : Shape) v acc h hφ hacc (ix1 p)
      = (Finset.univ : Finset (Fin n)).fold max (Ideal.ofBits .f32 acc) (fun c : Fin n => v (ix2 p c)) := by
  refine (Ideal.multiReduction_maximumf_single v acc h hφ hacc (ix1 p)).trans ?_
  show (Finset.univ : Finset (Fin n)).fold max (Ideal.ofBits .f32 acc) (fun k : Fin n => v (h.lift (ix1 p) k)) = _
  exact congrArg (fun f => (Finset.univ : Finset (Fin n)).fold max (Ideal.ofBits .f32 acc) f)
    (funext fun k => congrArg v (lift_axis1 h p k))

/-- Entry `t` of the maximum over the rows is the fold of `max` from the accumulator's value over column `t`. -/
theorem colMax_fold {m n : Nat} (v : FVec Ideal ⟨2, ![m, n]⟩ .f32) (acc : BitVec FTy.f32.bits)
    (h : (⟨2, ![m, n]⟩ : Shape).Reduces [0] (⟨1, ![n]⟩ : Shape)) (hφ : FKind.Formats .f32)
    (hacc : acc = FKind.maximumf.neutral .f32 hφ) (t : Fin n) :
    multiReduction .maximumf [0] (⟨1, ![n]⟩ : Shape) v acc h hφ hacc (ix1 t)
      = (Finset.univ : Finset (Fin m)).fold max (Ideal.ofBits .f32 acc) (fun r : Fin m => v (ix2 r t)) := by
  refine (Ideal.multiReduction_maximumf_single v acc h hφ hacc (ix1 t)).trans ?_
  show (Finset.univ : Finset (Fin m)).fold max (Ideal.ofBits .f32 acc) (fun k : Fin m => v (h.lift (ix1 t) k)) = _
  exact congrArg (fun f => (Finset.univ : Finset (Fin m)).fold max (Ideal.ofBits .f32 acc) f)
    (funext fun k => congrArg v (lift_axis0 h t k))

end Cert.AxisFold

end
-- ==== Proof.MemBody.lean ====
/-
  The first kernel's body at an index.

  The body loads the memory table, the two weight matrices and the two bias vectors whole and stores one 512 × 256
  block.  At (m, c) the stored value is the normalised memory `memn` of the loaded tables: both matrix products
  start from the zero splat, so each is the plain sum over the contracted coordinate; a bias vector cast to one row and
  broadcast down the rows reads its entry at the column; the sum of squares along a row, cast to a column and
  broadcast along the row, reads the row's own sum; and a change of float format is the identity.
-/
import proofs.«177485_j10599979286560_1_alg».proof.Proof.Gen.KernelIdeal.Skeleton
import proofs.«177485_j10599979286560_1_alg».proof.Proof.Spec
import proofs.«177485_j10599979286560_1_alg».proof.Proof.LibPlainDot
import proofs.«177485_j10599979286560_1_alg».proof.Proof.LibColumns
import proofs.«177485_j10599979286560_1_alg».proof.Proof.LibAxisFold
import Idealize.ShloMosaic.Lib.ValueLayout
import Idealize.ShloMosaic.Lib.ValueIdx
import Idealize.ShloMosaic.PureOps.Ideal.Laws

noncomputable section

open scoped BigOperators

namespace Cert.MemBody

open Idealize.ShloMosaic Idealize.ShloMosaic.ValueIdx Cert.KernelIdeal Cert.KernelIdeal.Gen

/-- The first layer's product at (p, c): the sum over the 256 contracted coordinates. -/
theorem mm1 (l : FVec Ideal S512x256 .bf16) (r : FVec Ideal S256x128 .bf16) (p : Fin 512) (c : Fin 128) :
    FloatOps.matmul dot_S512x256_S256x128_S512x128_1_0_0_1_n_n none l r (constant (F := Ideal) S512x128 .f32 0x00000000#32) (ix2 p c)
      = ∑ k : Fin 256, l (ix2 p k) * r (ix2 k c) :=
  Cert.Lib.PlainDot.matmul_zero_ix2 dot_S512x256_S256x128_S512x128_1_0_0_1_n_n rfl rfl
    (fun _ _ => rfl) (fun _ _ => rfl) (fun _ _ => rfl) (fun _ _ => rfl) none l r p c

/-- The second layer's product at (p, c): the sum over the 128 contracted coordinates. -/
theorem mm2 (l : FVec Ideal S512x128 .bf16) (r : FVec Ideal S128x256 .bf16) (p : Fin 512) (c : Fin 256) :
    FloatOps.matmul dot_S512x128_S128x256_S512x256_1_0_0_1_n_n none l r (constant (F := Ideal) S512x256 .f32 0x00000000#32) (ix2 p c)
      = ∑ k : Fin 128, l (ix2 p k) * r (ix2 k c) :=
  Cert.Lib.PlainDot.matmul_zero_ix2 dot_S512x128_S128x256_S512x256_1_0_0_1_n_n rfl rfl
    (fun _ _ => rfl) (fun _ _ => rfl) (fun _ _ => rfl) (fun _ _ => rfl) none l r p c

/-- A bias vector cast to one row and broadcast down 512 rows reads, at (p, k), its entry k. -/
theorem bias_row1 (v : FVec Ideal S128 .f32) (h1 : S128.ShapeCasts S1x128) (h2 : S1x128.Broadcasts S512x128)
    (p : Fin 512) (k : Fin 128) : broadcastTo S512x128 (shapeCast S1x128 v h1) h2 (ix2 p k) = v (ix1 k) :=
  (broadcastTo_1b_ab_apply _ h2 p k).trans (shapeCast_a_1a_apply v h1 0 k)

theorem bias_row2 (v : FVec Ideal S256 .f32) (h1 : S256.ShapeCasts S1x256) (h2 : S1x256.Broadcasts S512x256)
    (p : Fin 512) (k : Fin 256) : broadcastTo S512x256 (shapeCast S1x256 v h1) h2 (ix2 p k) = v (ix1 k) :=
  (broadcastTo_1b_ab_apply _ h2 p k).trans (shapeCast_a_1a_apply v h1 0 k)

/-- A column of 512 entries broadcast along 256 columns reads, at (p, c), its entry p. -/
theorem col_bcast (v : FVec Ideal S512x1 .f32) (h : S512x1.Broadcasts S512x256) (p : Fin 512) (c : Fin 256) :
    broadcastTo S512x256 v h (ix2 p c) = v (ix2 p (0 : Fin 1)) :=
  Cert.Lib.Columns.broadcastTo_a1_ab_apply v h p c

/-- A vector of 512 entries cast to a column reads, at (p, 0), its entry p. -/
theorem col_cast (v : FVec Ideal S512 .f32) (h : S512.ShapeCasts S512x1) (p : Fin 512) :
    shapeCast S512x1 v h (ix2 p (0 : Fin 1)) = v (ix1 p) :=
  Cert.Lib.Columns.shapeCast_a_a1_apply v h p 0

theorem sqrt_apply {s : Shape} (a : FVec Ideal s .f32) (i : s.Idx) : sqrt a i = Ideal.sqrt (a i) := rfl

/-- The sum of a 512 × 256 matrix along its rows, at p. -/
theorem row_sum (v : FVec Ideal S512x256 .f32) (acc : BitVec FTy.f32.bits) (h : S512x256.Reduces [1] S512) (hφ : FKind.Formats .f32)
    (hacc : acc = FKind.add.neutral .f32 hφ) (p : Fin 512) :
    multiReduction .add [1] S512 v acc h hφ hacc (ix1 p) = ∑ c : Fin 256, v (ix2 p c) :=
  Cert.AxisFold.rowSum_acc v acc h hφ hacc p

set_option backward.isDefEq.respectTransparency.types false in
/-- The body's stored value at (m, c) is the normalised memory of the loaded tables. -/
theorem pay_mem (v0 : Vec Ideal S512x256 .f32) (v2 : Vec Ideal S256x128 .f32) (v4 : Vec Ideal S128 .f32)
    (v12 : Vec Ideal S128x256 .f32) (v14 : Vec Ideal S256 .f32) (m : Fin 512) (c : Fin 256) :
    k0_pay1 (F := Ideal) v0 v2 v4 v12 v14 (ix2 m c) = Cert.Spec.memnA v0 v2 v4 v12 v14 m c := by
  unfold k0_pay1 Cert.Spec.memnA Cert.Spec.memn Cert.Spec.rowNormed Cert.Spec.feat Cert.Spec.hid
  repeat (first
    | rw [row_sum]
    | simp only [divf_apply, maximumf_apply, addf_apply, mulf_apply, broadcast_apply, matmul, mm1, mm2, bias_row1, bias_row2,
        col_bcast, col_cast, sqrt_apply, truncf_apply])
  rfl

end Cert.MemBody

end
-- ==== Proof.LibFirstAxesDot.lean ====
/-
  A matrix product contracting both operands' FIRST axes, into a zero accumulator, read at coordinates.

  For a dot of a `[K, M]` matrix with a `[K, N]` matrix whose dimension numbers contract the two first axes and keep the
  two second axes in order (the einsum 'km,kn->mn': the left operand used transposed without a transpose being
  materialized), the product accumulated into the zero splat is, at `(p, c)`,

      ∑ k : Fin K, l (k, p) · r (k, c)

  on the extended reals. The dimension record enters only through four facts about its operand indices — the left index at
  output index `i` and contraction position `q` is `(q, i 0)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.FirstAxesDot

open Idealize.ShloMosaic Idealize.ShloMosaic.ValueIdx

/-- The product of a `[K, M]` and a `[K, N]` matrix over their first axes into the zero splat at `(p, c)`: the sum over `k`
    of `l (k, p) · r (k, c)`. -/
theorem matmul_zero_first_axes {K M N : ℕ} {φ₁ φ₂ : FTy}
    (D : DotDims ⟨2, ![K, M]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (q ⟨0, by omega⟩).val)
    (hl1 : ∀ (i : (⟨2, ![M, N]⟩ : Shape).Idx) (q : D.contr.Idx), (D.lhsIdx i q (1 : Fin 2)).val = (i (0 : Fin 2)).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![K, M]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 k p) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 k p := funext fun a => Fin.ext (by
    match a with
    | ⟨0, _⟩ => exact (hl0 _ _).trans hk
    | ⟨1, _⟩ => exact hl1 _ _)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.FirstAxesDot
-- ==== Proof.LibLayoutAt.lean ====
/-
  Layout operations read at an index given by coordinates, for the shapes a kernel meets when it forms
  all pairs of two blocks of rows: a column `[a, 1]` squeezed to a vector or broadcast along the rows, a
  matrix given a trailing unit axis and broadcast along it, a vector placed on the last axis of a rank-3
  array, and the three row-major regroupings of a rank-3 array `[a, b, c]`: rows and columns merged
  (`[a * b, c]`), and the last two axes merged (`[a, b * c]`). Each lemma names the operand's index by
  coordinates; the merged coordinate is a variable with its equation as a hypothesis, so that a literal
  extent such as `16384` unifies where `128 * 128` would not.
-/
import Idealize.ShloMosaic.Lib.ValueLayout

namespace Cert.LayoutAt

open Idealize.ShloMosaic Idealize.ShloMosaic.ValueIdx

variable {α : Type}

/-! ## Shape casts -/

/-- An `[a, 1]` column cast to the vector `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, b]` matrix cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A vector `[c]` cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    omega)

/-- An `[a, b, c]` array cast to `[n, c]` with the first two axes merged reads, at row `p = i * b + j` and
    column `k`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (p : Fin n)
    (hp : p.val = i.val * b + j.val) :
    shapeCast ⟨2, ![n, c]⟩ x h (ix2 p k) = x (ix3 i j k) :=
  shapeCast_apply x h _ _ (by
    rw [Shape.rowMajor_val_three, Shape.rowMajor_val_two]
    show (i.val * b + j.val) * c + k.val = p.val * c + k.val
    rw [hp])

/-- An `[n, c]` matrix cast to `[a, b, c]` with its rows split reads, at `(i, j, k)`, the operand at row
    `p = i * b + j` and column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (p : Fin n)
    (hp : p.val = i.val * b + j.val) :
    shapeCast ⟨3, ![a, b, c]⟩ x h (ix3 i j k) = x (ix2 p k) :=
  shapeCast_apply x h _ _ (by
    rw [Shape.rowMajor_val_three, Shape.rowMajor_val_two]
    show p.val * c + k.val = (i.val * b + j.val) * c + k.val
    rw [hp])

/-- An `[a, b, c]` array cast to `[a, m]` with the last two axes merged (`m = b * c`) reads, at row `i` and
    column `q = j * c + k`, the operand at `(i, j, k)`. -/
theorem shapeCast_abc_am_apply {a b c m : ℕ} (x : (⟨3, ![a, b, c]⟩ : Shape).Idx → α)
    (h : (⟨3, ![a, b, c]⟩ : Shape).ShapeCasts ⟨2, ![a, m]⟩) (hm : m = b * c) (i : Fin a) (j : Fin b) (k : Fin c)
    (q : Fin m) (hq : q.val = j.val * c + k.val) :
    shapeCast ⟨2, ![a, m]⟩ x h (ix2 i q) = x (ix3 i j k) :=
  shapeCast_apply x h _ _ (by
    rw [Shape.rowMajor_val_three, Shape.rowMajor_val_two]
    show (i.val * b + j.val) * c + k.val = i.val * m + q.val
    rw [hq, hm, Nat.add_mul, Nat.mul_assoc, Nat.add_assoc])

/-- An `[a, m]` matrix cast to `[a, b, c]` with its columns split (`m = b * c`) reads, at `(i, j, k)`, the operand at
    row `i` and column `q = j * c + k`. -/
theorem shapeCast_am_abc_apply {a b c m : ℕ} (x : (⟨2, ![a, m]⟩ : Shape).Idx → α)
    (h : (⟨2, ![a, m]⟩ : Shape).ShapeCasts ⟨3, ![a, b, c]⟩) (hm : m = b * c) (i : Fin a) (j : Fin b) (k : Fin c)
    (q : Fin m) (hq : q.val = j.val * c + k.val) :
    shapeCast ⟨3, ![a, b, c]⟩ x h (ix3 i j k) = x (ix2 i q) :=
  shapeCast_apply x h _ _ (by
    rw [Shape.rowMajor_val_three, Shape.rowMajor_val_two]
    show i.val * m + q.val = (i.val * b + j.val) * c + k.val
    rw [hq, hm, Nat.add_mul, Nat.mul_assoc, Nat.add_assoc])

/-! ## Broadcasts -/

/-- An `[a, 1]` column broadcast to `[a, b]` reads, at `(p, q)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LayoutAt
-- ==== Proof.PixelBody.lean ====
/-
  The second kernel's body at an index.

  A grid point's body loads one image block (1 × 256 channels × 16 rows × 64 columns) and the whole normalised memory
  (512 × 256), and stores an attention block (1 × 512 × 16 × 64) and an output block (1 × 256 × 16 × 64).  Inside, the
  16 × 64 positions are flattened to 1024 columns: position (h, w) is column 64·h + w.  Every reduction runs down a
  column, so column q of every intermediate depends on column q of the image block only, that is on ONE pixel's 256
  channel values.  At (0, m, h, w) the attention block holds the pixel's attention weight of memory row m, and at
  (0, c, h, w) the output block holds the pixel's output channel c — the pixel functions of the specification, read at
  the loaded memory and the pixel's channel column.
-/
import proofs.«177485_j10599979286560_1_alg».proof.Proof.Gen.KernelIdeal.Skeleton
import proofs.«177485_j10599979286560_1_alg».proof.Proof.Spec
import proofs.«177485_j10599979286560_1_alg».proof.Proof.LibPlainDot
import proofs.«177485_j10599979286560_1_alg».proof.Proof.LibFirstAxesDot
import proofs.«177485_j10599979286560_1_alg».proof.Proof.LibLayoutAt
import proofs.«177485_j10599979286560_1_alg».proof.Proof.LibAxisFold
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.PixelBody

open Idealize.ShloMosaic Idealize.ShloMosaic.ValueIdx Cert.KernelIdeal Cert.KernelIdeal.Gen

/-- Position (h, w) of a 16 × 64 tile as a column of the flattened 1024. -/
def col (h : Fin 16) (w : Fin 64) : Fin 1024 := ⟨h.val * 64 + w.val, by have := h.isLt; have := w.isLt; omega⟩

/-- The memory table by coordinates. -/
abbrev tbl (mem : Vec Ideal S512x256 .f32) : Fin 512 → Fin 256 → EReal := fun m c => mem (ix2 m c)

/-- The channel column of the image block at position (h, w). -/
abbrev chan (xb : Vec Ideal S1x256x16x64 .f32) (h : Fin 16) (w : Fin 64) : Fin 256 → EReal := fun c => xb (ix4 (0 : Fin 1) c h w)

/-! ## The layout operations at coordinates -/

/-- The image block with its unit axis dropped and its positions flattened reads, at (c, column of (h, w)), the block at (0, c, h, w). -/
theorem flat_in (xb : FVec Ideal S1x256x16x64 .f32) (h1 : S1x256x16x64.ShapeCasts S256x16x64) (h2 : S256x16x64.ShapeCasts S256x1024)
    (c : Fin 256) (h : Fin 16) (w : Fin 64) :
    shapeCast S256x1024 (shapeCast S256x16x64 xb h1) h2 (ix2 c (col h w)) = xb (ix4 (0 : Fin 1) c h w) :=
  (Cert.LayoutAt.shapeCast_abc_am_apply _ h2 rfl c h w (col h w) rfl).trans (shapeCast_1abc_abc_apply xb h1 c h w)

/-- A 512 × 1024 matrix with its columns unflattened and a unit axis added reads, at (0, m, h, w), the matrix at (m, column of (h, w)). -/
theorem unflat512 (v : FVec Ideal S512x1024 .f32) (h1 : S512x1024.ShapeCasts S512x16x64) (h2 : S512x16x64.ShapeCasts S1x512x16x64)
    (m : Fin 512) (h : Fin 16) (w : Fin 64) :
    shapeCast S1x512x16x64 (shapeCast S512x16x64 v h1) h2 (ix4 (0 : Fin 1) m h w) = v (ix2 m (col h w)) :=
  (shapeCast_abc_1abc_apply _ h2 0 m h w).trans (Cert.LayoutAt.shapeCast_am_abc_apply v h1 rfl m h w (col h w) rfl)

/-- The same for a 256 × 1024 matrix. -/
theorem unflat256 (v : FVec Ideal S256x1024 .f32) (h1 : S256x1024.ShapeCasts S256x16x64) (h2 : S256x16x64.ShapeCasts S1x256x16x64)
    (c : Fin 256) (h : Fin 16) (w : Fin 64) :
    shapeCast S1x256x16x64 (shapeCast S256x16x64 v h1) h2 (ix4 (0 : Fin 1) c h w) = v (ix2 c (col h w)) :=
  (shapeCast_abc_1abc_apply _ h2 0 c h w).trans (Cert.LayoutAt.shapeCast_am_abc_apply v h1 rfl c h w (col h w) rfl)

/-- A vector of 1024 cast to one row and broadcast down the rows reads, at (p, q), its entry q. -/
theorem row_bcast256 (v : FVec Ideal S1x1024 .f32) (h : S1x1024.Broadcasts S256x1024) (p : Fin 256) (q : Fin 1024) :
    broadcastTo S256x1024 v h (ix2 p q) = v (ix2 (0 : Fin 1) q) := broadcastTo_1b_ab_apply v h p q
theorem row_bcast512 (v : FVec Ideal S1x1024 .f32) (h : S1x1024.Broadcasts S512x1024) (p : Fin 512) (q : Fin 1024) :
    broadcastTo S512x1024 v h (ix2 p q) = v (ix2 (0 : Fin 1) q) := broadcastTo_1b_ab_apply v h p q
theorem row_cast (v : FVec Ideal S1024 .f32) (h : S1024.ShapeCasts S1x1024) (q : Fin 1024) :
    shapeCast S1x1024 v h (ix2 (0 : Fin 1) q) = v (ix1 q) := shapeCast_a_1a_apply v h 0 q

theorem sqrt_apply {s : Shape} (a : FVec Ideal s .f32) (i : s.Idx) : sqrt a i = Ideal.sqrt (a i) := rfl
theorem exp_apply {s : Shape} (a : FVec Ideal s .f32) (i : s.Idx) : exp a i = Ideal.exp (a i) := rfl

/-! ## The reductions down a column -/

theorem col_sum256 (v : FVec Ideal S256x1024 .f32) (acc : BitVec FTy.f32.bits) (h : S256x1024.Reduces [0] S1024) (hφ : FKind.Formats .f32)
    (hacc : acc = FKind.add.neutral .f32 hφ) (q : Fin 1024) :
    multiReduction .add [0] S1024 v acc h hφ hacc (ix1 q) = ∑ r : Fin 256, v (ix2 r q) :=
  Cert.AxisFold.colSum_acc v acc h hφ hacc q

theorem col_sum512 (v : FVec Ideal S512x1024 .f32) (acc : BitVec FTy.f32.bits) (h : S512x1024.Reduces [0] S1024) (hφ : FKind.Formats .f32)
    (hacc : acc = FKind.add.neutral .f32 hφ) (q : Fin 1024) :
    multiReduction .add [0] S1024 v acc h hφ hacc (ix1 q) = ∑ r : Fin 512, v (ix2 r q) :=
  Cert.AxisFold.colSum_acc v acc h hφ hacc q

/-- The maximum down a column, taken from the starting word, is the fold of `max` over the column's 512 entries. -/
theorem col_max512 (v : FVec Ideal S512x1024 .f32) (acc : BitVec FTy.f32.bits) (h : S512x1024.Reduces [0] S1024) (hφ : FKind.Formats .f32)
    (hacc : acc = FKind.maximumf.neutral .f32 hφ) (q : Fin 1024) :
    multiReduction .maximumf [0] S1024 v acc h hφ hacc (ix1 q)
      = (Finset.univ : Finset (Fin 512)).fold max (Ideal.ofBits .f32 acc) (fun r : Fin 512 => v (ix2 r q)) :=
  Cert.AxisFold.colMax_fold v acc h hφ hacc q

/-! ## The two matrix products -/

/-- The scores: memory (512 × 256) times the normalised block (256 × 1024), at (m, q). -/
theorem mm_score (l : FVec Ideal S512x256 .bf16) (r : FVec Ideal S256x1024 .bf16) (m : Fin 512) (q : Fin 1024) :
    FloatOps.matmul dot_S512x256_S256x1024_S512x1024_1_0_0_1_n_n none l r (constant (F := Ideal) S512x1024 .f32 0x00000000#32) (ix2 m q)
      = ∑ k : Fin 256, l (ix2 m k) * r (ix2 k q) :=
  Cert.Lib.PlainDot.matmul_zero_ix2 dot_S512x256_S256x1024_S512x1024_1_0_0_1_n_n rfl rfl
    (fun _ _ => rfl) (fun _ _ => rfl) (fun _ _ => rfl) (fun _ _ => rfl) none l r m q

/-- The read-out: memory (512 × 256) against the attention (512 × 1024), contracted over the 512 memory rows, at (c, q). -/
theorem mm_out (l : FVec Ideal S512x256 .bf16) (r : FVec Ideal S512x1024 .bf16) (c : Fin 256) (q : Fin 1024) :
    FloatOps.matmul dot_S512x256_S512x1024_S256x1024_0_0_1_1_n_n none l r (constant (F := Ideal) S256x1024 .f32 0x00000000#32) (ix2 c q)
      = ∑ k : Fin 512, l (ix2 k c) * r (ix2 k q) :=
  Cert.Lib.FirstAxesDot.matmul_zero_first_axes dot_S512x256_S512x1024_S256x1024_0_0_1_1_n_n rfl rfl
    (fun _ _ => rfl) (fun _ _ => rfl) (fun _ _ => rfl) (fun _ _ => rfl) none l r c q

/-- The memory operand of both products is the loaded table: a cast to its own shape and a change of format. -/
theorem mem_operand (mem : Vec Ideal S512x256 .f32) (m : Fin 512) (c : Fin 256) :
    k1_pay2 (F := Ideal) mem (ix2 m c) = mem (ix2 m c) := by
  unfold k1_pay2
  show shapeCast S512x256 mem shapeCasts_S512x256_S512x256 (ix2 m c) = _
  rw [shapeCast_self]

/-! ## The attention weights and the output at a position -/

set_option backward.isDefEq.respectTransparency.types false in
/-- Column (h, w) of the attention matrix is the pixel's attention. -/
theorem pay3_att (xb : Vec Ideal S1x256x16x64 .f32) (mem : Vec Ideal S512x256 .f32) (m : Fin 512) (h : Fin 16) (w : Fin 64) :
    k1_pay3 (F := Ideal) xb mem (ix2 m (col h w)) = Cert.Spec.att (tbl mem) (chan xb h w) m := by
  unfold k1_pay3 Cert.Spec.att Cert.Spec.shr Cert.Spec.soft Cert.Spec.ex Cert.Spec.smax Cert.Spec.score Cert.Spec.xn
  repeat (first
    | rw [col_sum512]
    | rw [col_sum256]
    | rw [col_max512]
    | simp only [divf_apply, maximumf_apply, subf_apply, mulf_apply, broadcast_apply, matmul, mm_score, mem_operand, flat_in,
        row_bcast256, row_bcast512, row_cast, sqrt_apply, exp_apply, truncf_apply])
  rfl

/-- The attention block at (0, m, h, w). -/
theorem pay_att (xb : Vec Ideal S1x256x16x64 .f32) (mem : Vec Ideal S512x256 .f32) (m : Fin 512) (h : Fin 16) (w : Fin 64) :
    k1_pay4 (F := Ideal) xb mem (ix4 (0 : Fin 1) m h w) = Cert.Spec.att (tbl mem) (chan xb h w) m := by
  unfold k1_pay4
  exact (unflat512 _ _ _ m h w).trans (pay3_att xb mem m h w)

/-- The output block at (0, c, h, w). -/
theorem pay_out (xb : Vec Ideal S1x256x16x64 .f32) (mem : Vec Ideal S512x256 .f32) (c : Fin 256) (h : Fin 16) (w : Fin 64) :
    k1_pay1 (F := Ideal) (k1_pay2 mem) (k1_pay3 xb mem) (ix4 (0 : Fin 1) c h w) = Cert.Spec.outp (tbl mem) (chan xb h w) c := by
  unfold k1_pay1
  refine (unflat256 _ _ _ c h w).trans ?_
  refine (mm_out _ _ c (col h w)).trans ?_
  unfold Cert.Spec.outp
  exact Finset.sum_congr rfl fun k _ => by
    rw [mem_operand]
    exact congrArg (fun z => mem (ix2 k c) * z) (pay3_att xb mem k h w)

end Cert.PixelBody

end
-- ==== Proof.KernelValue.lean ====
/-
  From the blocks the grid points write back to the whole result arrays of the idealized kernel.

  First region: one grid point, every window the whole of its array; the block it writes back is the normalised memory
  of the five parameter arrays, and it is the whole memory array.
  Second region: 16 × 4 grid points; point (n, b) reads image n's rows 16·b … 16·b + 15 (all channels, all columns)
  and the whole memory array, and writes back the same rows of image n of the output and of the attention map.  Each
  written block is the block of ONE function of the whole arrays — at (n, ·, h, w) the pixel functions of the channel
  column of pixel (n, h, w) — and the 64 blocks tile each result array, so the arrays end as that function.
-/
import proofs.«177485_j10599979286560_1_alg».proof.Proof.Gen.KernelIdeal.Frame
import proofs.«177485_j10599979286560_1_alg».proof.Proof.KernelRun
import proofs.«177485_j10599979286560_1_alg».proof.Proof.MemBody
import proofs.«177485_j10599979286560_1_alg».proof.Proof.PixelBody
import Idealize.ShloMosaic.Lib.Pipeline.Value

set_option maxRecDepth 16384

noncomputable section

namespace Cert.KernelIdeal.ArrValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## The first region -/

/-- Every window of the first region sits at block index 0 on every axis, at its one grid point. -/
theorem idx0_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0 :=
  (by decide +kernel : ∀ t : Fin grid0.N, _)

/-- The normalised memory of the parameter arrays as the first region finds them. -/
def memOf (c : Dev nD) : Fin 512 → Fin 256 → EReal :=
  Cert.Spec.memnA (V c main_arg1 : S512x256.Idx → EReal) (V c main_arg2 : S256x128.Idx → EReal) (V c main_arg3 : S128.Idx → EReal)
    (V c main_arg4 : S128x256.Idx → EReal) (V c main_arg5 : S256.Idx → EReal)

/-- The memory array the first region leaves. -/
def G0 (c : Dev nD) : S512x256.Idx → EReal := fun i => memOf V c (i 0) (i 1)

theorem blk0_0 (c : Dev nD) (t : Fin cfg0.N) : iblk0 V c 0 t = (V c main_arg1 : S512x256.Idx → EReal) := by
  obtain ⟨e0, e1, -⟩ := idx0_facts t
  funext y
  show V c main_arg1 (((cfg0.win 0).blk t).view.emb y) = V c main_arg1 y
  refine congrArg _ (funext fun a => Fin.ext ?_)
  match a with
  | ⟨0, _⟩ => show win0_0.index t (0 : Fin 2) * 512 + 1 * (y 0).val = (y 0).val; omega
  | ⟨1, _⟩ => show win0_0.index t (1 : Fin 2) * 256 + 1 * (y 1).val = (y 1).val; omega

theorem blk0_1 (c : Dev nD) (t : Fin cfg0.N) : iblk0 V c 1 t = (V c main_arg2 : S256x128.Idx → EReal) := by
  obtain ⟨-, -, e0, e1, -⟩ := idx0_facts t
  funext y
  show V c main_arg2 (((cfg0.win 1).blk t).view.emb y) = V c main_arg2 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega

theorem blk0_2 (c : Dev nD) (t : Fin cfg0.N) : iblk0 V c 2 t = (V c main_arg3 : S128.Idx → EReal) := by
  obtain ⟨-, -, -, -, e0, -⟩ := idx0_facts t
  funext y
  show V c main_arg3 (((cfg0.win 2).blk t).view.emb y) = V c main_arg3 y
  refine congrArg _ (funext fun a => Fin.ext ?_)
  match a with
  | ⟨0, _⟩ => show win0_2.index t (0 : Fin 1) * 128 + 1 * (y 0).val = (y 0).val; omega

theorem blk0_3 (c : Dev nD) (t : Fin cfg0.N) : iblk0 V c 3 t = (V c main_arg4 : S128x256.Idx → EReal) := by
  obtain ⟨-, -, -, -, -, e0, e1, -⟩ := idx0_facts t
  funext y
  show V c main_arg4 (((cfg0.win 3).blk t).view.emb y) = V c main_arg4 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 256 + 1 * (y 1).val = (y 1).val; omega

theorem blk0_4 (c : Dev nD) (t : Fin cfg0.N) : iblk0 V c 4 t = (V c main_arg5 : S256.Idx → EReal) := by
  obtain ⟨-, -, -, -, -, -, -, e0, -⟩ := idx0_facts t
  funext y
  show V c main_arg5 (((cfg0.win 4).blk t).view.emb y) = V c main_arg5 y
  refine congrArg _ (funext fun a => Fin.ext ?_)
  match a with
  | ⟨0, _⟩ => show win0_4.index t (0 : Fin 1) * 256 + 1 * (y 0).val = (y 0).val; omega

/-- What the one grid point writes back is the block of the normalised memory. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz2]
  simp only [View.ld_unit_zero (S := S512x256) hz2, View.ld_unit_zero (S := S256x128) hz2, View.ld_unit_zero (S := S128) hz1,
    View.ld_unit_zero (S := S128x256) hz2, View.ld_unit_zero (S := S256) hz1]
  rw [blk0_0, blk0_1, blk0_2, blk0_3, blk0_4]
  obtain ⟨-, -, -, -, -, -, -, -, e0, e1⟩ := idx0_facts t
  refine funext fun (j : S512x256.Idx) => ?_
  obtain ⟨p, q, rfl⟩ : ∃ (p : Fin 512) (q : Fin 256), j = ix2 p q := ⟨j 0, j 1, eq_ix2 j⟩
  refine (Cert.MemBody.pay_mem _ _ _ _ _ p q).trans ?_
  show memOf V c p q = memOf V c ((((cfg0.win 5).blk t).view.emb (ix2 p q)) 0) ((((cfg0.win 5).blk t).view.emb (ix2 p q)) 1)
  have h0 : (((cfg0.win 5).blk t).view.emb (ix2 p q)) 0 = p := Fin.ext (by
    show win0_5.index t (0 : Fin 2) * 512 + 1 * p.val = p.val; omega)
  have h1 : (((cfg0.win 5).blk t).view.emb (ix2 p q)) 1 = q := Fin.ext (by
    show win0_5.index t (1 : Fin 2) * 256 + 1 * q.val = q.val; omega)
  rw [h0, h1]

/-- An index of the memory array is in the point's block iff each coordinate is in the block's range. -/
theorem mem_blk0 (t : Fin cfg0.N) (i : S512x256.Idx) :
    i ∈ ((cfg0.win 5).blk t).view.set ↔ ∀ a : Fin 2, win0_5.index t a * S512x256.size a ≤ (i a).val ∧ (i a).val < win0_5.index t a * S512x256.size a + S512x256.size a := by
  show i ∈ ((View.whole main_v0).slice (win0_5.rect t)).set ↔ _
  rw [View.set_slice_whole, Rect.mem_set_unit]
  exact Iff.rfl

/-- The memory array after the first region. -/
theorem final0 (c : Dev nD) : (dat0 V c).arrAt 5 cfg0.N = G0 V c := by
  refine (dat0 V c).arrAt_eq_of_cover 5 (G0 V c) (fun t _ => flushed0 V c t) fun i => ?_
  refine ⟨t0_0, flush0_5 t0_0, ?_⟩
  obtain ⟨-, -, -, -, -, -, -, -, e0, e1⟩ := idx0_facts t0_0
  rw [mem_blk0]
  intro a
  have hi0 : (i 0).val < 512 := (i 0).isLt
  have hi1 : (i 1).val < 256 := (i 1).isLt
  match a with
  | ⟨0, _⟩ => show win0_5.index t0_0 (0 : Fin 2) * 512 ≤ (i 0).val ∧ (i 0).val < win0_5.index t0_0 (0 : Fin 2) * 512 + 512; omega
  | ⟨1, _⟩ => show win0_5.index t0_0 (1 : Fin 2) * 256 ≤ (i 1).val ∧ (i 1).val < win0_5.index t0_0 (1 : Fin 2) * 256 + 256; omega

/-! ## The second region -/

/-- The index maps of the second region over its 64 grid points: the image block and the two result blocks move
    together along the batch axis and the row-tile axis and sit at 0 on the other two; the memory window stays put. -/
theorem idx1_facts : ∀ t : Fin cfg1.N,
    win1_0.index t (0 : Fin 4) = win1_3.index t (0 : Fin 4) ∧ win1_0.index t (1 : Fin 4) = 0
    ∧ win1_0.index t (2 : Fin 4) = win1_3.index t (2 : Fin 4) ∧ win1_0.index t (3 : Fin 4) = 0
    ∧ win1_2.index t (0 : Fin 4) = win1_3.index t (0 : Fin 4) ∧ win1_2.index t (1 : Fin 4) = 0
    ∧ win1_2.index t (2 : Fin 4) = win1_3.index t (2 : Fin 4) ∧ win1_2.index t (3 : Fin 4) = 0
    ∧ win1_3.index t (1 : Fin 4) = 0 ∧ win1_3.index t (3 : Fin 4) = 0
    ∧ win1_1.index t (0 : Fin 2) = 0 ∧ win1_1.index t (1 : Fin 2) = 0
    ∧ win1_3.index t (0 : Fin 4) ≤ 15 ∧ win1_3.index t (2 : Fin 4) ≤ 3 :=
  (by decide +kernel : ∀ t : Fin grid1.N, _)

/-- Every (image, row tile) pair is some grid point's. -/
theorem idx1_onto : ∀ (n : Fin 16) (b : Fin 4), ∃ t : Fin cfg1.N, win1_3.index t = ![n.val, 0, b.val, 0] :=
  (by decide +kernel : ∀ (n : Fin 16) (b : Fin 4), ∃ t : Fin grid1.N, win1_3.index t = ![n.val, 0, b.val, 0])

/-- The memory array as the second region finds it, by coordinates. -/
def memIn (c : Dev nD) : Fin 512 → Fin 256 → EReal := fun m k => (V c main_v0 : S512x256.Idx → EReal) (ix2 m k)

/-- The attention map and the output image of the arrays the second region finds. -/
def GA (c : Dev nD) : S16x512x64x64.Idx → EReal := Cert.Spec.attArr (memIn V c) (V c main_arg0 : S16x256x64x64.Idx → EReal)
def GO (c : Dev nD) : S16x256x64x64.Idx → EReal := Cert.Spec.outArr (memIn V c) (V c main_arg0 : S16x256x64x64.Idx → EReal)

theorem blk1_1 (c : Dev nD) (t : Fin cfg1.N) : iblk1 V c 1 t = (V c main_v0 : S512x256.Idx → EReal) := by
  obtain ⟨-, -, -, -, -, -, -, -, -, -, e0, e1, -⟩ := idx1_facts t
  funext y
  show V c main_v0 (((cfg1.win 1).blk t).view.emb y) = V c main_v0 y
  refine congrArg _ (funext fun a => Fin.ext ?_)
  match a with
  | ⟨0, _⟩ => show win1_1.index t (0 : Fin 2) * 512 + 1 * (y 0).val = (y 0).val; omega
  | ⟨1, _⟩ => show win1_1.index t (1 : Fin 2) * 256 + 1 * (y 1).val = (y 1).val; omega

/-- The channel column of the image block at position (h, w) is the pixel's, at the block's place in the image. -/
theorem chan_blk (c : Dev nD) (t : Fin cfg1.N) (n : Fin 16) (r : Fin 64) (h : Fin 16) (w : Fin 64)
    (hn : n.val = win1_3.index t (0 : Fin 4)) (hr : r.val = win1_3.index t (2 : Fin 4) * 16 + h.val) :
    Cert.PixelBody.chan (iblk1 V c 0 t) h w = Cert.Spec.pixel (V c main_arg0 : S16x256x64x64.Idx → EReal) n r w := by
  obtain ⟨e0, e1, e2, e3, -⟩ := idx1_facts t
  funext c'
  show V c main_arg0 (((cfg1.win 0).blk t).view.emb (ix4 (0 : Fin 1) c' h w)) = V c main_arg0 (ix4 n c' r w)
  refine congrArg _ (funext fun a => Fin.ext ?_)
  match a with
  | ⟨0, _⟩ => show win1_0.index t (0 : Fin 4) * 1 + 1 * 0 = n.val; omega
  | ⟨1, _⟩ => show win1_0.index t (1 : Fin 4) * 256 + 1 * c'.val = c'.val; omega
  | ⟨2, _⟩ => show win1_0.index t (2 : Fin 4) * 16 + 1 * h.val = r.val; omega
  | ⟨3, _⟩ => show win1_0.index t (3 : Fin 4) * 64 + 1 * w.val = w.val; omega

/-- What a grid point writes back to the attention map is its block of the attention map of the whole arrays. -/
theorem flushed1_3 (c : Dev nD) (t : Fin cfg1.N) :
    (dat1 V c).flushed 3 t = ((cfg1.win 3).blk t).view.read (Elt Ideal) (GA V c) := by
  show (cfg1.win 3).cut (grid1.coords t) ((dat1 V c).after 3 t) = _
  rw [after1_3]
  unfold out1_3
  rw [View.canon_unit_zero hz4]
  simp only [View.ld_unit_zero (S := S1x256x16x64) hz4, View.ld_unit_zero (S := S512x256) hz2]
  rw [blk1_1]
  obtain ⟨-, -, -, -, -, -, -, -, e1, e3, -, -, b0, b2⟩ := idx1_facts t
  refine funext fun (j : S1x512x16x64.Idx) => ?_
  obtain ⟨u, p, h, w, rfl⟩ : ∃ (u : Fin 1) (p : Fin 512) (h : Fin 16) (w : Fin 64), j = ix4 u p h w :=
    ⟨j 0, j 1, j 2, j 3, eq_ix4 j⟩
  obtain rfl : u = 0 := Subsingleton.elim _ _
  refine (Cert.PixelBody.pay_att _ _ p h w).trans ?_
  have hh : h.val < 16 := h.isLt
  have hw : w.val < 64 := w.isLt
  show Cert.Spec.att (memIn V c) (Cert.PixelBody.chan (iblk1 V c 0 t) h w) p
    = Cert.Spec.att (memIn V c)
        (Cert.Spec.pixel (V c main_arg0 : S16x256x64x64.Idx → EReal)
          ((((cfg1.win 3).blk t).view.emb (ix4 (0 : Fin 1) p h w)) 0)
          ((((cfg1.win 3).blk t).view.emb (ix4 (0 : Fin 1) p h w)) 2)
          ((((cfg1.win 3).blk t).view.emb (ix4 (0 : Fin 1) p h w)) 3))
        ((((cfg1.win 3).blk t).view.emb (ix4 (0 : Fin 1) p h w)) 1)
  have h1 : (((cfg1.win 3).blk t).view.emb (ix4 (0 : Fin 1) p h w)) 1 = p := Fin.ext (by
    show win1_3.index t (1 : Fin 4) * 512 + 1 * p.val = p.val; omega)
  have h3 : (((cfg1.win 3).blk t).view.emb (ix4 (0 : Fin 1) p h w)) 3 = w := Fin.ext (by
    show win1_3.index t (3 : Fin 4) * 64 + 1 * w.val = w.val; omega)
  rw [h1, h3]
  rw [chan_blk V c t ((((cfg1.win 3).blk t).view.emb (ix4 (0 : Fin 1) p h w)) 0) ((((cfg1.win 3).blk t).view.emb (ix4 (0 : Fin 1) p h w)) 2) h w
    (by show win1_3.index t (0 : Fin 4) * 1 + 1 * 0 = win1_3.index t (0 : Fin 4); omega)
    (by show win1_3.index t (2 : Fin 4) * 16 + 1 * h.val = win1_3.index t (2 : Fin 4) * 16 + h.val; omega)]

/-- What a grid point writes back to the output image is its block of the output image of the whole arrays. -/
theorem flushed1_2 (c : Dev nD) (t : Fin cfg1.N) :
    (dat1 V c).flushed 2 t = ((cfg1.win 2).blk t).view.read (Elt Ideal) (GO V c) := by
  show (cfg1.win 2).cut (grid1.coords t) ((dat1 V c).after 2 t) = _
  rw [after1_2]
  unfold out1_2
  rw [View.canon_unit_zero hz4]
  simp only [View.ld_unit_zero (S := S1x256x16x64) hz4, View.ld_unit_zero (S := S512x256) hz2]
  rw [blk1_1]
  obtain ⟨-, -, -, -, d0, d1, d2, d3, -, -, -, -, b0, b2⟩ := idx1_facts t
  refine funext fun (j : S1x256x16x64.Idx) => ?_
  obtain ⟨u, p, h, w, rfl⟩ : ∃ (u : Fin 1) (p : Fin 256) (h : Fin 16) (w : Fin 64), j = ix4 u p h w :=
    ⟨j 0, j 1, j 2, j 3, eq_ix4 j⟩
  obtain rfl : u = 0 := Subsingleton.elim _ _
  refine (Cert.PixelBody.pay_out _ _ p h w).trans ?_
  have hh : h.val < 16 := h.isLt
  have hw : w.val < 64 := w.isLt
  show Cert.Spec.outp (memIn V c) (Cert.PixelBody.chan (iblk1 V c 0 t) h w) p
    = Cert.Spec.outp (memIn V c)
        (Cert.Spec.pixel (V c main_arg0 : S16x256x64x64.Idx → EReal)
          ((((cfg1.win 2).blk t).view.emb (ix4 (0 : Fin 1) p h w)) 0)
          ((((cfg1.win 2).blk t).view.emb (ix4 (0 : Fin 1) p h w)) 2)
          ((((cfg1.win 2).blk t).view.emb (ix4 (0 : Fin 1) p h w)) 3))
        ((((cfg1.win 2).blk t).view.emb (ix4 (0 : Fin 1) p h w)) 1)
  have h1 : (((cfg1.win 2).blk t).view.emb (ix4 (0 : Fin 1) p h w)) 1 = p := Fin.ext (by
    show win1_2.index t (1 : Fin 4) * 256 + 1 * p.val = p.val; omega)
  have h3 : (((cfg1.win 2).blk t).view.emb (ix4 (0 : Fin 1) p h w)) 3 = w := Fin.ext (by
    show win1_2.index t (3 : Fin 4) * 64 + 1 * w.val = w.val; omega)
  rw [h1, h3]
  rw [chan_blk V c t ((((cfg1.win 2).blk t).view.emb (ix4 (0 : Fin 1) p h w)) 0) ((((cfg1.win 2).blk t).view.emb (ix4 (0 : Fin 1) p h w)) 2) h w
    (by show win1_2.index t (0 : Fin 4) * 1 + 1 * 0 = win1_3.index t (0 : Fin 4); omega)
    (by show win1_2.index t (2 : Fin 4) * 16 + 1 * h.val = win1_3.index t (2 : Fin 4) * 16 + h.val; omega)]

theorem mem_blk1_3 (t : Fin cfg1.N) (i : S16x512x64x64.Idx) :
    i ∈ ((cfg1.win 3).blk t).view.set ↔ ∀ a : Fin 4, win1_3.index t a * S1x512x16x64.size a ≤ (i a).val ∧ (i a).val < win1_3.index t a * S1x512x16x64.size a + S1x512x16x64.size a := by
  show i ∈ ((View.whole main_v1_1).slice (win1_3.rect t)).set ↔ _
  rw [View.set_slice_whole, Rect.mem_set_unit]
  exact Iff.rfl

theorem mem_blk1_2 (t : Fin cfg1.N) (i : S16x256x64x64.Idx) :
    i ∈ ((cfg1.win 2).blk t).view.set ↔ ∀ a : Fin 4, win1_2.index t a * S1x256x16x64.size a ≤ (i a).val ∧ (i a).val < win1_2.index t a * S1x256x16x64.size a + S1x256x16x64.size a := by
  show i ∈ ((View.whole main_v1_0).slice (win1_2.rect t)).set ↔ _
  rw [View.set_slice_whole, Rect.mem_set_unit]
  exact Iff.rfl

/-- The attention map after the second region. -/
theorem final1_3 (c : Dev nD) : (dat1 V c).arrAt 3 cfg1.N = GA V c := by
  refine (dat1 V c).arrAt_eq_of_cover 3 (GA V c) (fun t _ => flushed1_3 V c t) fun i => ?_
  have hi0 : (i 0).val < 16 := (i 0).isLt
  have hi1 : (i 1).val < 512 := (i 1).isLt
  have hi2 : (i 2).val < 64 := (i 2).isLt
  have hi3 : (i 3).val < 64 := (i 3).isLt
  obtain ⟨t, ht⟩ := idx1_onto ⟨(i 0).val, hi0⟩ ⟨(i 2).val / 16, by omega⟩
  have q0 : win1_3.index t (0 : Fin 4) = (i 0).val := congrFun ht 0
  have q1 : win1_3.index t (1 : Fin 4) = 0 := congrFun ht 1
  have q2 : win1_3.index t (2 : Fin 4) = (i 2).val / 16 := congrFun ht 2
  have q3 : win1_3.index t (3 : Fin 4) = 0 := congrFun ht 3
  refine ⟨t, flush1_3 t, ?_⟩
  rw [mem_blk1_3]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 512 ≤ (i 1).val ∧ (i 1).val < win1_3.index t (1 : Fin 4) * 512 + 512; omega
  | ⟨2, _⟩ => show win1_3.index t (2 : Fin 4) * 16 ≤ (i 2).val ∧ (i 2).val < win1_3.index t (2 : Fin 4) * 16 + 16; omega
  | ⟨3, _⟩ => show win1_3.index t (3 : Fin 4) * 64 ≤ (i 3).val ∧ (i 3).val < win1_3.index t (3 : Fin 4) * 64 + 64; omega

/-- The output image after the second region. -/
theorem final1_2 (c : Dev nD) : (dat1 V c).arrAt 2 cfg1.N = GO V c := by
  refine (dat1 V c).arrAt_eq_of_cover 2 (GO V c) (fun t _ => flushed1_2 V c t) fun i => ?_
  have hi0 : (i 0).val < 16 := (i 0).isLt
  have hi1 : (i 1).val < 256 := (i 1).isLt
  have hi2 : (i 2).val < 64 := (i 2).isLt
  have hi3 : (i 3).val < 64 := (i 3).isLt
  obtain ⟨t, ht⟩ := idx1_onto ⟨(i 0).val, hi0⟩ ⟨(i 2).val / 16, by omega⟩
  obtain ⟨-, -, -, -, d0, d1, d2, d3, -⟩ := idx1_facts t
  have q0 : win1_3.index t (0 : Fin 4) = (i 0).val := congrFun ht 0
  have q2 : win1_3.index t (2 : Fin 4) = (i 2).val / 16 := congrFun ht 2
  refine ⟨t, flush1_2 t, ?_⟩
  rw [mem_blk1_2]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 256 ≤ (i 1).val ∧ (i 1).val < win1_2.index t (1 : Fin 4) * 256 + 256; omega
  | ⟨2, _⟩ => show win1_2.index t (2 : Fin 4) * 16 ≤ (i 2).val ∧ (i 2).val < win1_2.index t (2 : Fin 4) * 16 + 16; omega
  | ⟨3, _⟩ => show win1_2.index t (3 : Fin 4) * 64 ≤ (i 3).val ∧ (i 3).val < win1_2.index t (3 : Fin 4) * 64 + 64; omega

/-! ## The run -/

section Run

variable (m : (ℓ : Loc nD τ sig) → Buf (Elt Ideal) ℓ) (ρ : Dev nD → PrngReg)

/-- The normalised memory of the launch contents of the five parameter arrays. -/
def memArgs (c : Dev nD) : Fin 512 → Fin 256 → EReal :=
  Cert.Spec.memnA (m ((c.tc : Thread nD τ).loc main_arg1) : S512x256.Idx → EReal) (m ((c.tc : Thread nD τ).loc main_arg2) : S256x128.Idx → EReal)
    (m ((c.tc : Thread nD τ).loc main_arg3) : S128.Idx → EReal) (m ((c.tc : Thread nD τ).loc main_arg4) : S128x256.Idx → EReal)
    (m ((c.tc : Thread nD τ).loc main_arg5) : S256.Idx → EReal)

/-- The memory array the second region finds is the normalised memory of the launch contents. -/
theorem memIn_V1 (c : Dev nD) : memIn (V1 m ρ) c = memArgs m c := by
  funext p k
  show (V1 m ρ c main_v0 : S512x256.Idx → EReal) (ix2 p k) = _
  have e : (V1 m ρ c main_v0 : S512x256.Idx → EReal) = G0 (V0 m ρ) c := (W1_arr m ρ c 5).trans (final0 (V0 m ρ) c)
  rw [e]
  rfl

/-- The image array the second region finds is the launch contents. -/
theorem img_V1 (c : Dev nD) : (V1 m ρ c main_arg0 : S16x256x64x64.Idx → EReal) = m ((c.tc : Thread nD τ).loc main_arg0) :=
  W1_of_ne m ρ c main_arg0 (by decide)

/-- THE KERNEL'S RUN: every weakly fair execution terminates with the output image and the attention map at the
    specification's functions of the launch contents, the arguments unchanged. -/
theorem run : θ_run defs (onTc (τ := τ) (main (F := Ideal))) ⟨m, fun _ => 0, ρ⟩ (fun r => ∀ c : Dev nD,
      r.2.mem ((c.tc : Thread nD τ).loc main_v1_0) = Cert.Spec.outArr (memArgs m c) (m ((c.tc : Thread nD τ).loc main_arg0) : S16x256x64x64.Idx → EReal)
      ∧ r.2.mem ((c.tc : Thread nD τ).loc main_v1_1) = Cert.Spec.attArr (memArgs m c) (m ((c.tc : Thread nD τ).loc main_arg0) : S16x256x64x64.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c).1.trans ((final1_2 (V1 m ρ) c).trans (by unfold GO; rw [memIn_V1, img_V1])),
       (h c).2.1.trans ((final1_3 (V1 m ρ) c).trans (by unfold GA; rw [memIn_V1, img_V1])),
       (h c).2.2⟩)
    (Cert.KernelIdeal.RunValue.run_values m ρ)

end Run

end Cert.KernelIdeal.ArrValue

end
-- ==== Proof.RefIsSpec.lean ====
/-
  The reference program computes the function of `Cert.Spec`.

  The reference is a chain of array operations; each is read at one index from its operands.  Three groups of
  facts, each by composing those reads:
  * the memory table: the two-layer perceptron with rectifiers followed by the row normalisation, at (m, c);
  * one pixel row `r` of the flattened image (a row of 256 channels): the channel normalisation, the scores
    against the memory rows, their maximum, the shifted softmax, the hard shrink, the renormalisation and the
    weighted read-out, each as the corresponding function of the row;
  * the layout: the flattened row `n·4096 + h·64 + w` of the transposed image is the pixel (n, h, w), and the
    two results are the read-out and the attention weights put back in (n, ·, h, w) order.
  Nothing needs finiteness: only commutativity of the product under a sum, `0 + x = x` for a sum's zero start,
  and `max a (fold max a f) = fold max a f`.
-/
import proofs.«177485_j10599979286560_1_alg».proof.Proof.Gen.ReferenceIdeal.Read
import proofs.«177485_j10599979286560_1_alg».proof.Proof.Spec
import Idealize.ShloMosaic.Lib.ValueIdx
import Idealize.ShloMosaic.PureOps.Ideal.Laws
import Mathlib.Data.Finset.Fold

noncomputable section

open scoped BigOperators

namespace Cert.RefSpec

open Cert.ReferenceIdeal Cert.ReferenceIdeal.Gen Cert.ReferenceIdeal.Read Idealize.ShloMosaic Idealize.ShloMosaic.ValueIdx

/-! ## Indices by coordinates -/

/-- A rank-1 index with coordinate `a` is `ix1 a`. -/
theorem ix1_of {n : Nat} (i : (⟨1, ![n]⟩ : Shape).Idx) (a : Fin n) (h0 : i 0 = a) : i = ix1 a := by
  funext d; match d with | ⟨0, _⟩ => exact h0

/-- A rank-2 index with coordinates `a`, `b` is `ix2 a b`. -/
theorem ix2_of {n0 n1 : Nat} (i : (⟨2, ![n0, n1]⟩ : Shape).Idx) (a : Fin n0) (b : Fin n1) (h0 : i 0 = a) (h1 : i 1 = b) :
    i = ix2 a b := by
  funext d; match d with | ⟨0, _⟩ => exact h0 | ⟨1, _⟩ => exact h1

/-- A rank-4 index with coordinates `a`, `b`, `c`, `d` is `ix4 a b c d`. -/
theorem ix4_of {n0 n1 n2 n3 : Nat} (i : (⟨4, ![n0, n1, n2, n3]⟩ : Shape).Idx) (a : Fin n0) (b : Fin n1) (c : Fin n2)
    (d : Fin n3) (h0 : i 0 = a) (h1 : i 1 = b) (h2 : i 2 = c) (h3 : i 3 = d) : i = ix4 a b c d := by
  funext e; match e with | ⟨0, _⟩ => exact h0 | ⟨1, _⟩ => exact h1 | ⟨2, _⟩ => exact h2 | ⟨3, _⟩ => exact h3

variable (x0 : (⟨S16x256x64x64, .f32⟩ : BufTy).Contents (Elt Ideal))
  (x1 : (⟨S512x256, .f32⟩ : BufTy).Contents (Elt Ideal)) (x2 : (⟨S256x128, .f32⟩ : BufTy).Contents (Elt Ideal))
  (x3 : (⟨S128, .f32⟩ : BufTy).Contents (Elt Ideal)) (x4 : (⟨S128x256, .f32⟩ : BufTy).Contents (Elt Ideal))
  (x5 : (⟨S256, .f32⟩ : BufTy).Contents (Elt Ideal))

/-! ## The memory table -/

/-- The hidden layer at (m, k). -/
theorem v11_at (m : Fin 512) (k : Fin 128) :
    val_main_v11 (F := Ideal) x1 x2 x3 (ix2 m k)
      = Cert.Spec.hid (fun m j => x1 (ix2 m j)) (fun j k => x2 (ix2 j k)) (fun k => x3 (ix1 k)) m k := by
  rw [val_main_v11_apply, val_main_v10_apply, val_main_v7_apply, val_main_v9_apply, val_main_v8_apply,
    val_main_call1_v0_apply, val_main_call1_cst_apply]
  have e1 : ∀ j : Fin 256, lidx_main_v7 (ix2 m k) j = ix2 m j := fun j => ix2_of _ _ _ rfl rfl
  have e2 : ∀ j : Fin 256, ridx_main_v7 (ix2 m k) j = ix2 j k := fun j => ix2_of _ _ _ rfl rfl
  have e3 : idx_main_v8 (idx_main_v9 (ix2 m k)) = ix1 k := ix1_of _ _ rfl
  simp only [e1, e2, e3]
  rfl

/-- The second layer at (m, c). -/
theorem v16_at (m : Fin 512) (c : Fin 256) :
    val_main_v16 (F := Ideal) x1 x2 x3 x4 x5 (ix2 m c)
      = Cert.Spec.feat (Cert.Spec.hid (fun m j => x1 (ix2 m j)) (fun j k => x2 (ix2 j k)) (fun k => x3 (ix1 k)))
          (fun k c => x4 (ix2 k c)) (fun c => x5 (ix1 c)) m c := by
  rw [val_main_v16_apply, val_main_v15_apply, val_main_v12_apply, val_main_v14_apply, val_main_v13_apply,
    val_main_call2_v0_apply, val_main_call2_cst_apply]
  have e1 : ∀ k : Fin 128, lidx_main_v12 (ix2 m c) k = ix2 m k := fun k => ix2_of _ _ _ rfl rfl
  have e2 : ∀ k : Fin 128, ridx_main_v12 (ix2 m c) k = ix2 k c := fun k => ix2_of _ _ _ rfl rfl
  have e3 : idx_main_v13 (idx_main_v14 (ix2 m c)) = ix1 c := ix1_of _ _ rfl
  simp only [e1, e2, e3, v11_at]
  rfl

/-- The normalised memory at (m, c). -/
theorem v21_at (m : Fin 512) (c : Fin 256) :
    val_main_v21 (F := Ideal) x1 x2 x3 x4 x5 (ix2 m c) = Cert.Spec.memnA x1 x2 x3 x4 x5 m c := by
  rw [val_main_v21_apply, val_main_v20_apply, val_main_v19_apply, val_main_v17_apply, val_main_call3_v2_apply,
    val_main_call3_v1_apply, val_main_v18_apply, val_main_cst_0_apply, val_main_call3_cst_apply]
  have e1 : ∀ k : Fin 256, idx_main_call3_v1 (idx_main_call3_v2 (idx_main_v20 (ix2 m c))) k = ix2 m k :=
    fun k => ix2_of _ _ _ rfl rfl
  simp only [e1, val_main_call3_v0_apply, v16_at, Ideal.ofBits_def, Ideal.ofBits_zero_f32, zero_add]
  rfl

/-! ## One row of the flattened image

For a row `r` of the flattened image the column of its 256 channel values is `fun c' => val_main_v1 x0 (ix2 r c')`;
each later stage at row `r` is the corresponding function of that column and of the normalised memory. -/

/-- The normalised row at (r, c). -/
theorem v6_at (r : Fin 65536) (c : Fin 256) :
    val_main_v6 (F := Ideal) x0 (ix2 r c) = Cert.Spec.xn (fun c' => val_main_v1 (F := Ideal) x0 (ix2 r c')) c := by
  rw [val_main_v6_apply, val_main_v5_apply, val_main_v4_apply, val_main_v2_apply, val_main_call0_v2_apply,
    val_main_call0_v1_apply, val_main_v3_apply, val_main_cst_apply, val_main_call0_cst_apply]
  have e1 : ∀ k : Fin 256, idx_main_call0_v1 (idx_main_call0_v2 (idx_main_v5 (ix2 r c))) k = ix2 r k :=
    fun k => ix2_of _ _ _ rfl rfl
  simp only [e1, val_main_call0_v0_apply, Ideal.ofBits_def, Ideal.ofBits_zero_f32, zero_add]
  rfl

/-- The score of memory row `m` at row `r`: the reference contracts the normalised row with the transposed memory,
    the same products in the other order. -/
theorem v23_at (r : Fin 65536) (m : Fin 512) :
    val_main_v23 (F := Ideal) x0 x1 x2 x3 x4 x5 (ix2 r m) = Cert.Spec.score (Cert.Spec.memnA x1 x2 x3 x4 x5) (fun c' => val_main_v1 (F := Ideal) x0 (ix2 r c')) m := by
  rw [val_main_v23_apply]
  unfold Cert.Spec.score
  refine Finset.sum_congr rfl fun k _ => ?_
  have e1 : lidx_main_v23 (ix2 r m) k = ix2 r k := ix2_of _ _ _ rfl rfl
  have e2 : idx_main_v22 (ridx_main_v23 (ix2 r m) k) = ix2 m k := ix2_of _ _ _ rfl rfl
  rw [val_main_v22_apply, e1, e2, v6_at, v21_at, mul_comm]

/-- The score array reduces along its second axis. -/
theorem reduces_scores : S65536x512.Reduces [1] S65536 := by decide

/-- The reduced index `r` with memory row `k` put back is (r, k). -/
theorem lift_scores (r : Fin 65536) (k : Fin (S65536x512.size 1)) :
    reduces_scores.lift (ix1 r) k = ix2 r (⟨k.val, k.isLt⟩ : Fin 512) := by
  funext c; apply Fin.ext
  fin_cases c <;> rfl

/-- The reduce with a maximum body at row `r`: the fold of the maximum over the scores, from the starting value. -/
theorem v24_at (r : Fin 65536) :
    val_main_v24 (F := Ideal) x0 x1 x2 x3 x4 x5 (ix1 r)
      = (Finset.univ : Finset (Fin 512)).fold max Cert.Spec.ninfL (Cert.Spec.score (Cert.Spec.memnA x1 x2 x3 x4 x5) (fun c' => val_main_v1 (F := Ideal) x0 (ix2 r c'))) := by
  unfold val_main_v24
  rw [Host.reduce_eq_fold_single FloatOps.maximumf _ _ reducesTo_S65536x512_S65536_d1 reduces_scores h_S_]
  have hf : (val_main_v23 (F := Ideal) x0 x1 x2 x3 x4 x5 ∘ reduces_scores.lift (ix1 r))
      = fun k : Fin 512 => Cert.Spec.score (Cert.Spec.memnA x1 x2 x3 x4 x5) (fun c' => val_main_v1 (F := Ideal) x0 (ix2 r c')) k :=
    funext fun k => (congrArg (val_main_v23 (F := Ideal) x0 x1 x2 x3 x4 x5) (lift_scores r k)).trans (v23_at x0 x1 x2 x3 x4 x5 r _)
  exact congrArg (fun f => Finset.fold max Cert.Spec.ninfL f (Finset.univ : Finset (Fin 512))) hf

/-- The largest score at row `r`: the maximum of the starting value and the fold from it is the fold. -/
theorem v26_at (r : Fin 65536) :
    val_main_v26 (F := Ideal) x0 x1 x2 x3 x4 x5 (ix1 r) = Cert.Spec.smax (Cert.Spec.memnA x1 x2 x3 x4 x5) (fun c' => val_main_v1 (F := Ideal) x0 (ix2 r c')) := by
  rw [val_main_v26_apply, val_main_v25_apply, val_main_cst_2_apply, v24_at]
  exact max_eq_right ((Finset.le_fold_max _).mpr (Or.inl le_rfl))

/-- The shifted exponential at (r, m). -/
theorem v30_at (r : Fin 65536) (m : Fin 512) :
    val_main_v30 (F := Ideal) x0 x1 x2 x3 x4 x5 (ix2 r m) = Cert.Spec.ex (Cert.Spec.memnA x1 x2 x3 x4 x5) (fun c' => val_main_v1 (F := Ideal) x0 (ix2 r c')) m := by
  rw [val_main_v30_apply, val_main_v29_apply, val_main_v28_apply, val_main_v27_apply]
  have e1 : idx_main_v27 (idx_main_v28 (ix2 r m)) = ix1 r := ix1_of _ _ rfl
  rw [e1, v26_at, v23_at]
  rfl

/-- The sum of the shifted exponentials at row `r`. -/
theorem v31_at (r : Fin 65536) :
    val_main_v31 (F := Ideal) x0 x1 x2 x3 x4 x5 (ix1 r) = ∑ m' : Fin 512, Cert.Spec.ex (Cert.Spec.memnA x1 x2 x3 x4 x5) (fun c' => val_main_v1 (F := Ideal) x0 (ix2 r c')) m' := by
  rw [val_main_v31_apply, val_main_cst_3_apply]
  have e1 : ∀ k : Fin 512, idx_main_v31 (ix1 r) k = ix2 r k := fun k => ix2_of _ _ _ rfl rfl
  simp only [e1, v30_at, Ideal.ofBits_def, Ideal.ofBits_zero_f32, zero_add]

/-- The softmax at (r, m). -/
theorem v34_at (r : Fin 65536) (m : Fin 512) :
    val_main_v34 (F := Ideal) x0 x1 x2 x3 x4 x5 (ix2 r m) = Cert.Spec.soft (Cert.Spec.memnA x1 x2 x3 x4 x5) (fun c' => val_main_v1 (F := Ideal) x0 (ix2 r c')) m := by
  rw [val_main_v34_apply, val_main_v33_apply, val_main_v32_apply]
  have e1 : idx_main_v32 (idx_main_v33 (ix2 r m)) = ix1 r := ix1_of _ _ rfl
  rw [e1, v31_at, v30_at]
  rfl

/-- The shrunk softmax at (r, m). -/
theorem v37_at (r : Fin 65536) (m : Fin 512) :
    val_main_v37 (F := Ideal) x0 x1 x2 x3 x4 x5 (ix2 r m) = Cert.Spec.shr (Cert.Spec.memnA x1 x2 x3 x4 x5) (fun c' => val_main_v1 (F := Ideal) x0 (ix2 r c')) m := by
  rw [val_main_v37_apply, val_main_v36_apply, val_main_v35_apply, val_main_cst_4_apply, val_main_call4_v0_apply,
    val_main_call4_cst_apply, v34_at]
  rfl

/-- The sum of the shrunk softmax at row `r`. -/
theorem v38_at (r : Fin 65536) :
    val_main_v38 (F := Ideal) x0 x1 x2 x3 x4 x5 (ix1 r) = ∑ m' : Fin 512, Cert.Spec.shr (Cert.Spec.memnA x1 x2 x3 x4 x5) (fun c' => val_main_v1 (F := Ideal) x0 (ix2 r c')) m' := by
  rw [val_main_v38_apply, val_main_cst_5_apply]
  have e1 : ∀ k : Fin 512, idx_main_v38 (ix1 r) k = ix2 r k := fun k => ix2_of _ _ _ rfl rfl
  simp only [e1, v37_at, Ideal.ofBits_def, Ideal.ofBits_zero_f32, zero_add]

/-- The attention weight at (r, m). -/
theorem v43_at (r : Fin 65536) (m : Fin 512) :
    val_main_v43 (F := Ideal) x0 x1 x2 x3 x4 x5 (ix2 r m) = Cert.Spec.att (Cert.Spec.memnA x1 x2 x3 x4 x5) (fun c' => val_main_v1 (F := Ideal) x0 (ix2 r c')) m := by
  rw [val_main_v43_apply, val_main_v42_apply, val_main_v41_apply, val_main_v39_apply, val_main_v40_apply,
    val_main_cst_6_apply]
  have e1 : idx_main_v39 (idx_main_v42 (ix2 r m)) = ix1 r := ix1_of _ _ rfl
  rw [e1, v38_at, v37_at]
  rfl

/-- The read-out at (r, c): the reference contracts the weights with the memory, the same products in the other order. -/
theorem v44_at (r : Fin 65536) (c : Fin 256) :
    val_main_v44 (F := Ideal) x0 x1 x2 x3 x4 x5 (ix2 r c) = Cert.Spec.outp (Cert.Spec.memnA x1 x2 x3 x4 x5) (fun c' => val_main_v1 (F := Ideal) x0 (ix2 r c')) c := by
  rw [val_main_v44_apply]
  unfold Cert.Spec.outp
  refine Finset.sum_congr rfl fun k _ => ?_
  have e1 : lidx_main_v44 (ix2 r c) k = ix2 r k := ix2_of _ _ _ rfl rfl
  have e2 : ridx_main_v44 (ix2 r c) k = ix2 k c := ix2_of _ _ _ rfl rfl
  rw [e1, e2, v43_at, v21_at, mul_comm]

/-! ## The layout -/

/-- The flattened row of pixel (n, h, w). -/
def row (n : Fin 16) (h w : Fin 64) : Fin 65536 :=
  ⟨n.val * 4096 + h.val * 64 + w.val, by have := n.isLt; have := h.isLt; have := w.isLt; omega⟩

/-- Row `row n h w` of the flattened image at channel `c` is the image at (n, c, h, w). -/
theorem v1_at (n : Fin 16) (h w : Fin 64) (c : Fin 256) :
    val_main_v1 (F := Ideal) x0 (ix2 (row n h w) c) = x0 (ix4 n c h w) := by
  rw [val_main_v1_apply, val_main_v0_apply]
  have hn := n.isLt; have hh := h.isLt; have hw := w.isLt; have hc := c.isLt
  refine congrArg x0 (ix4_of _ _ _ _ _ (Fin.ext ?_) (Fin.ext ?_) (Fin.ext ?_) (Fin.ext ?_))
  · show ((n.val * 4096 + h.val * 64 + w.val) * 256 + c.val) / 1048576 = n.val; omega
  · show ((n.val * 4096 + h.val * 64 + w.val) * 256 + c.val) % 256 = c.val; omega
  · show ((n.val * 4096 + h.val * 64 + w.val) * 256 + c.val) / 16384 % 64 = h.val; omega
  · show ((n.val * 4096 + h.val * 64 + w.val) * 256 + c.val) / 256 % 64 = w.val; omega

/-- The first result at (n, c, h, w) is the read-out at row `row n h w`, channel `c`. -/
theorem v46_at (n : Fin 16) (c : Fin 256) (h w : Fin 64) :
    val_main_v46 (F := Ideal) x0 x1 x2 x3 x4 x5 (ix4 n c h w) = val_main_v44 (F := Ideal) x0 x1 x2 x3 x4 x5 (ix2 (row n h w) c) := by
  rw [val_main_v46_apply, val_main_v45_apply]
  have hn := n.isLt; have hh := h.isLt; have hw := w.isLt; have hc := c.isLt
  refine congrArg (val_main_v44 (F := Ideal) x0 x1 x2 x3 x4 x5) (ix2_of _ _ _ (Fin.ext ?_) (Fin.ext ?_))
  · show (((n.val * 64 + h.val) * 64 + w.val) * 256 + c.val) / 256 = n.val * 4096 + h.val * 64 + w.val; omega
  · show (((n.val * 64 + h.val) * 64 + w.val) * 256 + c.val) % 256 = c.val; omega

/-- The second result at (n, m, h, w) is the attention weight at row `row n h w`, memory row `m`. -/
theorem v48_at (n : Fin 16) (m : Fin 512) (h w : Fin 64) :
    val_main_v48 (F := Ideal) x0 x1 x2 x3 x4 x5 (ix4 n m h w) = val_main_v43 (F := Ideal) x0 x1 x2 x3 x4 x5 (ix2 (row n h w) m) := by
  rw [val_main_v48_apply, val_main_v47_apply]
  have hn := n.isLt; have hh := h.isLt; have hw := w.isLt; have hm := m.isLt
  refine congrArg (val_main_v43 (F := Ideal) x0 x1 x2 x3 x4 x5) (ix2_of _ _ _ (Fin.ext ?_) (Fin.ext ?_))
  · show (((n.val * 64 + h.val) * 64 + w.val) * 512 + m.val) / 512 = n.val * 4096 + h.val * 64 + w.val; omega
  · show (((n.val * 64 + h.val) * 64 + w.val) * 512 + m.val) % 512 = m.val; omega

/-- The channel column of row `row n h w` is the pixel (n, h, w). -/
theorem row_pixel (n : Fin 16) (h w : Fin 64) :
    (fun c' => val_main_v1 (F := Ideal) x0 (ix2 (row n h w) c')) = Cert.Spec.pixel x0 n h w :=
  funext fun c' => v1_at x0 n h w c'

/-! ## The two results -/

/-- The reference's first result is the output image of the specification. -/
theorem ref_out : val_main_v46 (F := Ideal) x0 x1 x2 x3 x4 x5 = Cert.Spec.outArr (Cert.Spec.memnA x1 x2 x3 x4 x5) x0 := by
  funext i
  obtain ⟨n, c, h, w, rfl⟩ : ∃ n c h w, i = ix4 n c h w := ⟨i 0, i 1, i 2, i 3, eq_ix4 i⟩
  rw [v46_at, v44_at, row_pixel]
  rfl

/-- The reference's second result is the attention map of the specification. -/
theorem ref_att : val_main_v48 (F := Ideal) x0 x1 x2 x3 x4 x5 = Cert.Spec.attArr (Cert.Spec.memnA x1 x2 x3 x4 x5) x0 := by
  funext i
  obtain ⟨n, m, h, w, rfl⟩ : ∃ n m h w, i = ix4 n m h w := ⟨i 0, i 1, i 2, i 3, eq_ix4 i⟩
  rw [v48_at, v43_at, row_pixel]
  rfl

end Cert.RefSpec

end
-- ==== Proof.lean ====
/-
  The kernel (two regions: a small one that normalises a memory table after a two-layer perceptron, and a gridded one
  that, pixel by pixel, normalises the channel column, scores it against the memory rows, takes a maximum-shifted
  softmax, shrinks it by a threshold, renormalises it and reads the memory back out) computes, over the extended reals,
  the same two arrays as the plain reference.

  Both sides are brought to ONE function of the six argument arrays (Proof/Spec.lean): the normalised memory `memn`, and
  per pixel the attention weights `att` and the output `outp`.  The kernel keeps channels and memory rows on the first
  axis and the 16 × 64 pixels of a tile on the second; the reference keeps the 65536 pixels on the first axis.  The two
  differ only in the order of the factors inside the two inner products and in where the axes sit, so the only laws used
  are the commutativity of the product, `0 + x = x` for the reference's sums started at zero, and that a maximum folded
  from a starting value dominates it.  No finiteness of the inputs is needed.

  The frames of the two kernel programs are the generated ones; the reference's frame is its generated run with the
  results dropped; the idealisation rewrote nothing, so `preserves` is `True`.
-/
import proofs.«177485_j10599979286560_1_alg».proof.Defs
import proofs.«177485_j10599979286560_1_alg».proof.Proof.Gen.Kernel
import proofs.«177485_j10599979286560_1_alg».proof.Proof.Gen.Kernel.Skeleton
import proofs.«177485_j10599979286560_1_alg».proof.Proof.Gen.Kernel.Launch
import proofs.«177485_j10599979286560_1_alg».proof.Proof.Gen.Kernel.Points
import proofs.«177485_j10599979286560_1_alg».proof.Proof.Gen.Kernel.Frame
import proofs.«177485_j10599979286560_1_alg».proof.Proof.Gen.KernelIdeal
import proofs.«177485_j10599979286560_1_alg».proof.Proof.Gen.KernelIdeal.Skeleton
import proofs.«177485_j10599979286560_1_alg».proof.Proof.Gen.KernelIdeal.Launch
import proofs.«177485_j10599979286560_1_alg».proof.Proof.Gen.KernelIdeal.Points
import proofs.«177485_j10599979286560_1_alg».proof.Proof.Gen.KernelIdeal.Frame
import proofs.«177485_j10599979286560_1_alg».proof.Proof.Gen.ReferenceIdeal
import proofs.«177485_j10599979286560_1_alg».proof.Proof.Gen.Pre_finite_inputs
import proofs.«177485_j10599979286560_1_alg».proof.Proof.Gen.ReferenceIdeal.Run
import proofs.«177485_j10599979286560_1_alg».proof.Proof.Gen.ReferenceIdeal.Read
import proofs.«177485_j10599979286560_1_alg».proof.Proof.KernelValue
import proofs.«177485_j10599979286560_1_alg».proof.Proof.RefIsSpec
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the six arguments both programs end with the output image and the attention map at the
    specification's functions of those arguments: the kernel by its blocks read back into the arrays, the reference by its
    operations read at an index. -/
theorem algebraic : Cert.algebraic_KernelIdeal_ReferenceIdeal := by
  intro m ρ m' ρ' _ hagree
  refine ⟨_, _, Cert.KernelIdeal.ArrValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v46_eq, Cert.RefSpec.ref_out, (hagree c).1, (hagree c).2.1, (hagree c).2.2.1,
      (hagree c).2.2.2.1, (hagree c).2.2.2.2.1, (hagree c).2.2.2.2.2]
    rfl
  · rw [Cert.ReferenceIdeal.Read.val_main_v48_eq, Cert.RefSpec.ref_att, (hagree c).1, (hagree c).2.1, (hagree c).2.2.1,
      (hagree c).2.2.2.1, (hagree c).2.2.2.2.1, (hagree c).2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
